-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S64x128 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S128x64 : Shape := ⟨2, ![128, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 64
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S128x64, .f32⟩
  | .hbm, ⟨29, _⟩ => ⟨S100000x64, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S1x64, .f32⟩
  | .hbm, ⟨44, _⟩ => ⟨S64x64, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  transposes_S64x64_S64x64_1_0 : S64x64.Transposes [1, 0] S64x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S128x64, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S64x64, .f32⟩
  | .hbm, ⟨104, _⟩ => ⟨S100000x64, .f32⟩
  | .hbm, ⟨105, _⟩ => ⟨S1700000x1, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel program's run with its RESULT named. The program is seven segments: three stretches of host
  operations, the first projection kernel over twenty row blocks, a stretch of host operations (the first gather and
  accumulation over the edges), the second kernel, and the last stretch (the second gather and accumulation, the
  final scaling and the bias). Every weakly fair execution terminates with every buffer at the contents the last
  boundary names; in particular the result array holds what the last stretch leaves in it, and the six argument
  arrays hold what they held at launch.
-/
import proofs.«165854_j3264175145417_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, the arguments as launched. -/
theorem run_result : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.KWalk.lean ====
/-
  The buffers of the idealized kernel program at its segment boundaries, named.

  Before the first kernel the host builds, from the edge array, the two endpoint vectors with one self loop per node
  appended (`srcV`, `dstV`), counts the edges arriving at every node (`degV`), and takes the guarded inverse square
  root of the counts (`dinvV`), laid out as a column; it also transposes the first weight matrix. Between the kernels
  it gathers the first kernel's rows by source (negative indices wrapped) and accumulates them by target (`agg`),
  lays the first bias out as a row and transposes the second weight matrix. After the second kernel it gathers and
  accumulates again, scales every row by its node's weight and adds the second bias (`tail`). No stretch writes a
  buffer an earlier one produced, and a kernel writes only its result array, so a value produced early is still
  there when a later segment reads it.
-/
import proofs.«165854_j3264175145417_2_alg».proof.Proof.Gen.KernelIdeal.Frame

set_option maxRecDepth 16384

noncomputable section

namespace Cert.KernelIdeal.KWalk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The host stretches as functions -/

/-- An index vector as the column a gather or a scatter reads. -/
def col (v : IVec S1700000 32) : IVec S1700000x1 32 :=
  broadcastInDim S1700000x1 ![0] bcast_S1700000_S1700000x1_0 v

/-- An index vector with its negative entries wrapped by the node count, as a column. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The sources: row 0 of the edge array, then every node once. -/
def srcV (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩,
    ⟨S100000, iotaInDim S100000 32 0⟩] concatenates_S1600000_S100000_S1700000_d0

/-- The targets: row 1 of the edge array, then every node once. -/
def dstV (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩,
    ⟨S100000, iotaInDim S100000 32 0⟩] concatenates_S1600000_S100000_S1700000_d0

/-- The number of edges arriving at every node. -/
def degV (a1 : IVec S2x1600000 32) : FVec F S100000 .f32 :=
  Host.scatterAdd scatter_S100000_S1700000x1_S1700000_n_0_0_1
    (broadcastInDim S100000 ![] bcast_S_S100000 (constant S_ .f32 0x00000000#32))
    (col (dstV a1))
    (broadcastInDim S1700000 ![] bcast_S_S1700000 (constant S_ .f32 0x3F800000#32))

/-- Every node's weight: the inverse square root of its count where the count is positive, zero elsewhere. -/
def dinvV (a1 : IVec S2x1600000 32) : FVec F S100000 .f32 :=
  select (cmpf .ogt (degV (F := F) a1) (broadcastInDim S100000 ![] bcast_S_S100000 (constant S_ .f32 0x00000000#32)))
    (Host.rsqrt (degV (F := F) a1))
    (broadcastInDim S100000 ![] bcast_S_S100000 (id (constant (F := F) S_ .f32 0x00000000#32)))

/-- Rows gathered by source and accumulated by target, from zero. -/
def agg (dst src : IVec S1700000 32) (k : FVec F S100000x64 .f32) : FVec F S100000x64 .f32 :=
  Host.scatterAdd scatter_S100000x64_S1700000x1_S1700000x64_1_0_0_1
    (broadcastInDim S100000x64 ![] bcast_S_S100000x64 (constant S_ .f32 0x00000000#32))
    (col dst)
    (Host.gather gather_S100000x64_S1700000x1_S1700000x64_1_0_n_n_0_1_164 k (wrapCol src))

/-- The last stretch: gather and accumulate, scale every row by its node's weight, add the bias row. -/
def tail (dc : FVec F S100000x1 .f32) (dst src : IVec S1700000 32) (k : FVec F S100000x64 .f32) (b : FVec F S64 .f32) :
    FVec F S100000x64 .f32 :=
  addf (mulf (broadcastInDim S100000x64 ![0, 1] bcast_S100000x1_S100000x64_0_1 dc) (agg dst src k))
    (broadcastInDim S100000x64 ![0, 1] bcast_S1x64_S100000x64_0_1 (shapeCast S1x64 b shapeCasts_S64_S1x64))

variable (m : (ℓ : Loc nD τ sig) → Buf (Elt F) ℓ) (ρ : Dev nD → PrngReg)

/-! ## At the first kernel's entry -/

set_option maxHeartbeats 4000000 in
theorem W3_v15 (c : Dev nD) : W3 m ρ c (Proc.devRef .tc main_v15)
    = shapeCast S100000x1 (dinvV (F := F) (m ((c.tc : Thread nD τ).loc main_arg1))) shapeCasts_S100000_S100000x1 := by
  show StableHlo.after hostOps0_2 (StableHlo.after hostOps0_1 (StableHlo.after hostOps0 (W0 m ρ c))) (Proc.devRef .tc main_v15) = _
  after_results
  rfl

theorem W3_v16 (c : Dev nD) : W3 m ρ c (Proc.devRef .tc main_v16)
    = transpose S128x64 [1, 0] (m ((c.tc : Thread nD τ).loc main_arg2)) transposes_S64x128_S128x64_1_0 := by
  show StableHlo.after hostOps0_2 (StableHlo.after hostOps0_1 (StableHlo.after hostOps0 (W0 m ρ c))) (Proc.devRef .tc main_v16) = _
  after_results

set_option maxHeartbeats 4000000 in
theorem W3_v3 (c : Dev nD) : W3 m ρ c (Proc.devRef .tc main_v3) = srcV (m ((c.tc : Thread nD τ).loc main_arg1)) := by
  show StableHlo.after hostOps0_2 (StableHlo.after hostOps0_1 (StableHlo.after hostOps0 (W0 m ρ c))) (Proc.devRef .tc main_v3) = _
  after_results
  rfl

set_option maxHeartbeats 4000000 in
theorem W3_v6 (c : Dev nD) : W3 m ρ c (Proc.devRef .tc main_v6) = dstV (m ((c.tc : Thread nD τ).loc main_arg1)) := by
  show StableHlo.after hostOps0_2 (StableHlo.after hostOps0_1 (StableHlo.after hostOps0 (W0 m ρ c))) (Proc.devRef .tc main_v6) = _
  after_results
  rfl

theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results

theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results

theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results

theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results

/-! ## At the first kernel's exit -/

theorem W4_v17 (c : Dev nD) : W4 m ρ c (Proc.devRef .tc main_v17) = (dat0 (V3 m ρ) c).arrAt 3 cfg0.N := W4_arr m ρ c 3

theorem W4_v15 (c : Dev nD) : W4 m ρ c (Proc.devRef .tc main_v15) = W3 m ρ c (Proc.devRef .tc main_v15) :=
  (W4_arr m ρ c 2).trans (((dat0 (V3 m ρ) c).arrAt_in 2 rfl _).trans (A_eq0 (V3 m ρ) c 2))

theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)

/-! ## At the second kernel's entry -/

set_option maxHeartbeats 4000000 in
theorem W5_v27 (c : Dev nD) : W5 m ρ c (Proc.devRef .tc main_v27)
    = agg (F := F) (W4 m ρ c (Proc.devRef .tc main_v6)) (W4 m ρ c (Proc.devRef .tc main_v3)) (W4 m ρ c (Proc.devRef .tc main_v17)) := by
  show StableHlo.after hostOps1 (W4 m ρ c) (Proc.devRef .tc main_v27) = _
  after_results
  rfl

set_option maxHeartbeats 4000000 in
theorem W5_v28 (c : Dev nD) : W5 m ρ c (Proc.devRef .tc main_v28)
    = shapeCast S1x64 (W4 m ρ c (Proc.devRef .tc main_arg3)) shapeCasts_S64_S1x64 := by
  show StableHlo.after hostOps1 (W4 m ρ c) (Proc.devRef .tc main_v28) = _
  after_results
  rfl

theorem W5_v29 (c : Dev nD) : W5 m ρ c (Proc.devRef .tc main_v29)
    = transpose S64x64 [1, 0] (W4 m ρ c (Proc.devRef .tc main_arg4)) transposes_S64x64_S64x64_1_0 := by
  show StableHlo.after hostOps1 (W4 m ρ c) (Proc.devRef .tc main_v29) = _
  after_results

theorem W5_v15 (c : Dev nD) : W5 m ρ c (Proc.devRef .tc main_v15) = W4 m ρ c (Proc.devRef .tc main_v15) := by
  show StableHlo.after hostOps1 (W4 m ρ c) (Proc.devRef .tc main_v15) = _
  after_results

theorem W5_v3 (c : Dev nD) : W5 m ρ c (Proc.devRef .tc main_v3) = W4 m ρ c (Proc.devRef .tc main_v3) := by
  show StableHlo.after hostOps1 (W4 m ρ c) (Proc.devRef .tc main_v3) = _
  after_results

theorem W5_v6 (c : Dev nD) : W5 m ρ c (Proc.devRef .tc main_v6) = W4 m ρ c (Proc.devRef .tc main_v6) := by
  show StableHlo.after hostOps1 (W4 m ρ c) (Proc.devRef .tc main_v6) = _
  after_results

theorem W5_arg5 (c : Dev nD) : W5 m ρ c (Proc.devRef .tc main_arg5) = W4 m ρ c (Proc.devRef .tc main_arg5) := by
  show StableHlo.after hostOps1 (W4 m ρ c) (Proc.devRef .tc main_arg5) = _
  after_results

/-! ## At the second kernel's exit -/

theorem W6_v30 (c : Dev nD) : W6 m ρ c (Proc.devRef .tc main_v30) = (dat1 (V5 m ρ) c).arrAt 4 cfg1.N := W6_arr m ρ c 4

theorem W6_v15 (c : Dev nD) : W6 m ρ c (Proc.devRef .tc main_v15) = W5 m ρ c (Proc.devRef .tc main_v15) :=
  (W6_arr m ρ c 1).trans (((dat1 (V5 m ρ) c).arrAt_in 1 rfl _).trans (A_eq1 (V5 m ρ) c 1))

theorem W6_v3 (c : Dev nD) : W6 m ρ c (Proc.devRef .tc main_v3) = W5 m ρ c (Proc.devRef .tc main_v3) := W6_of_ne m ρ c main_v3 (by decide)
theorem W6_v6 (c : Dev nD) : W6 m ρ c (Proc.devRef .tc main_v6) = W5 m ρ c (Proc.devRef .tc main_v6) := W6_of_ne m ρ c main_v6 (by decide)
theorem W6_arg5 (c : Dev nD) : W6 m ρ c (Proc.devRef .tc main_arg5) = W5 m ρ c (Proc.devRef .tc main_arg5) := W6_of_ne m ρ c main_arg5 (by decide)

/-! ## The result -/

set_option maxHeartbeats 4000000 in
theorem W7_v45 (c : Dev nD) : W7 m ρ c (Proc.devRef .tc main_v45)
    = tail (F := F) (W6 m ρ c (Proc.devRef .tc main_v15)) (W6 m ρ c (Proc.devRef .tc main_v6)) (W6 m ρ c (Proc.devRef .tc main_v3))
        (W6 m ρ c (Proc.devRef .tc main_v30)) (W6 m ρ c (Proc.devRef .tc main_arg5)) := by
  show StableHlo.after hostOps2 (W6 m ρ c) (Proc.devRef .tc main_v45) = _
  after_results
  rfl

end Cert.KernelIdeal.KWalk

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.KBlock0.lean ====
/-
  The first kernel, read as one array. Its grid has twenty points; point t stages rows 5000·t … 5000·t + 4999 of the
  features and of the weight column, and the whole transposed weight matrix, and stores into the same rows of the
  result the product of the feature rows with the matrix — accumulated from zero, the rounding of the operands to
  bf16 being the identity on the extended reals — with each row then scaled by its weight. The twenty blocks tile the
  result array, so after the region the array is ONE function of the three arrays the region found:
  entry (n, j) is  dc[n, 0] · Σₖ x[n, k] · wt[k, j].
-/
import proofs.«165854_j3264175145417_2_alg».proof.Proof.Gen.KernelIdeal.Frame
import Idealize.ShloMosaic.Lib.Pipeline.Value
import Idealize.ShloMosaic.Lib.ValueIdx
import Idealize.ShloMosaic.PureOps.Ideal.Laws
import proofs.«165854_j3264175145417_2_alg».proof.Proof.LibMatmulNN
import proofs.«165854_j3264175145417_2_alg».proof.Proof.LibColumnLayout

set_option maxRecDepth 16384

noncomputable section

namespace Cert.KernelIdeal.KBlock0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Entry (n, j) of the projection: row n of the features against column j of the transposed weights, scaled by the
    row's weight. -/
def proj (x : FVec Ideal S100000x128 .f32) (wt : FVec Ideal S128x64 .f32) (dc : FVec Ideal S100000x1 .f32) :
    FVec Ideal S100000x64 .f32 :=
  fun i => dc (ix2 (i 0) (0 : Fin 1)) * ∑ k : Fin 128, x (ix2 (i 0) k) * wt (ix2 k (i 1))

/-- What the body stores, at (p, q) of its block: the weight of row p times the row's product with column q. -/
theorem pay_apply (x0 : Vec Ideal S5000x128 .f32) (x1 : Vec Ideal S128x64 .f32) (x2 : Vec Ideal S5000x1 .f32)
    (p : Fin 5000) (q : Fin 64) :
    k0_pay1 (F := Ideal) x0 x1 x2 (ix2 p q) = x2 (ix2 p (0 : Fin 1)) * ∑ k : Fin 128, x0 (ix2 p k) * x1 (ix2 k q) := by
  unfold k0_pay1
  rw [shapeCast_self, shapeCast_self]
  refine (mulf_apply _ _ _).trans ?_
  refine congrArg₂ (· * ·) (broadcastTo_a1_ab_apply x2 _ p q) ?_
  exact LibMatmulNN.matmul_zero_apply 5000 128 64 none (truncf .bf16 x0 bitsLt_bf16_f32) (truncf .bf16 x1 bitsLt_bf16_f32) p q

/-- The printed index maps over the grid: the row-blocked windows sit at block t, the weight matrix at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the feature block at point t is row 5000·t + p of the feature array. -/
theorem blk0_apply (c : Dev nD) (t : Fin cfg0.N) (p : Fin 5000) (k : Fin 128) (n : Fin 100000)
    (hn : n.val = t.val * 5000 + p.val) :
    (iblk0 V c 0 t : Vec Ideal S5000x128 .f32) (ix2 p k) = (V c main_arg0 : FVec Ideal S100000x128 .f32) (ix2 n k) := by
  obtain ⟨e00, e01, -⟩ := idx_facts t
  unfold iblk0
  rw [View.read_apply]
  show V c main_arg0 _ = V c main_arg0 _
  congr 1
  funext a
  apply Fin.ext
  match a with
  | ⟨0, _⟩ => show win0_0.index t 0 * 5000 + 1 * p.val = n.val; rw [e00, hn]; omega
  | ⟨1, _⟩ => show win0_0.index t 1 * 128 + 1 * k.val = k.val; rw [e01]; omega

/-- The weight block at every point is the whole transposed weight matrix. -/
theorem blk1_apply (c : Dev nD) (t : Fin cfg0.N) (k : Fin 128) (q : Fin 64) :
    (iblk0 V c 1 t : Vec Ideal S128x64 .f32) (ix2 k q) = (V c main_v16 : FVec Ideal S128x64 .f32) (ix2 k q) := by
  obtain ⟨-, -, e10, e11, -⟩ := idx_facts t
  unfold iblk0
  rw [View.read_apply]
  show V c main_v16 _ = V c main_v16 _
  congr 1
  funext a
  apply Fin.ext
  match a with
  | ⟨0, _⟩ => show win0_1.index t 0 * 128 + 1 * k.val = k.val; rw [e10]; omega
  | ⟨1, _⟩ => show win0_1.index t 1 * 64 + 1 * q.val = q.val; rw [e11]; omega

/-- Row p of the weight-column block at point t is row 5000·t + p of the weight column. -/
theorem blk2_apply (c : Dev nD) (t : Fin cfg0.N) (p : Fin 5000) (n : Fin 100000)
    (hn : n.val = t.val * 5000 + p.val) :
    (iblk0 V c 2 t : Vec Ideal S5000x1 .f32) (ix2 p (0 : Fin 1)) = (V c main_v15 : FVec Ideal S100000x1 .f32) (ix2 n (0 : Fin 1)) := by
  obtain ⟨-, -, -, -, e20, e21, -⟩ := idx_facts t
  unfold iblk0
  rw [View.read_apply]
  show V c main_v15 _ = V c main_v15 _
  congr 1
  funext a
  apply Fin.ext
  match a with
  | ⟨0, _⟩ => show win0_2.index t 0 * 5000 + 1 * p.val = n.val; rw [e20, hn]; omega
  | ⟨1, _⟩ => show win0_2.index t 1 * 1 + 1 * 0 = 0; rw [e21]

/-- Entry (p, q) of the result block at point t is entry (5000·t + p, q) of the result array. -/
theorem emb3_apply (t : Fin cfg0.N) (p : Fin 5000) (q : Fin 64) (n : Fin 100000) (hn : n.val = t.val * 5000 + p.val) :
    ((cfg0.win 3).blk t).view.emb (ix2 p q) = (ix2 n q : S100000x64.Idx) := by
  obtain ⟨-, -, -, -, -, -, e30, e31⟩ := idx_facts t
  funext a
  apply Fin.ext
  match a with
  | ⟨0, _⟩ => show win0_3.index t 0 * 5000 + 1 * p.val = n.val; rw [e30, hn]; omega
  | ⟨1, _⟩ => show win0_3.index t 1 * 64 + 1 * q.val = q.val; rw [e31]; omega

/-- WHAT POINT t WRITES BACK is block t of the projection of the arrays as the region finds them. -/
theorem flushed_eq (c : Dev nD) (t : Fin cfg0.N) :
    (dat0 V c).flushed 3 t = ((cfg0.win 3).blk t).view.read (Elt Ideal) (proj (V c main_arg0) (V c main_v16) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  funext j
  obtain ⟨p, q, rfl⟩ : ∃ (p : Fin 5000) (q : Fin 64), j = ix2 p q := ⟨j 0, j 1, eq_ix2 j⟩
  have ht : t.val < 20 := lt_of_lt_of_eq t.isLt N_0
  have hp := p.isLt
  let n : Fin 100000 := ⟨t.val * 5000 + p.val, by omega⟩
  have hn : n.val = t.val * 5000 + p.val := rfl
  show k0_pay1 (F := Ideal) (iblk0 V c 0 t) (iblk0 V c 1 t) (iblk0 V c 2 t) (ix2 p q)
    = proj (V c main_arg0) (V c main_v16) (V c main_v15) (((cfg0.win 3).blk t).view.emb (ix2 p q))
  refine (pay_apply (iblk0 V c 0 t) (iblk0 V c 1 t) (iblk0 V c 2 t) p q).trans ?_
  rw [emb3_apply t p q n hn, blk2_apply V c t p n hn]
  unfold proj
  refine congrArg _ (Finset.sum_congr rfl fun k _ => ?_)
  rw [blk0_apply V c t p k n hn, blk1_apply V c t k q]

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- THE RESULT ARRAY after the region: the projection of the arrays the region found. Row n is written by point
    n / 5000. -/
theorem final (c : Dev nD) :
    (dat0 V c).arrAt 3 cfg0.N = proj (V c main_arg0) (V c main_v16) (V c main_v15) :=
  (dat0 V c).arrAt_eq_of_cover 3 _ (fun t _ => flushed_eq V c t) fun i => by
    have hi0 : (i 0).val < 100000 := (i 0).isLt
    have hi1 : (i 1).val < 64 := (i 1).isLt
    have hN : cfg0.N = 20 := N_0
    let t : Fin cfg0.N := ⟨(i 0).val / 5000, by rw [hN]; omega⟩
    obtain ⟨-, -, -, -, -, -, e30, e31⟩ := idx_facts t
    refine ⟨t, flush0_3 t, ?_⟩
    rw [mem_blk]
    intro a
    match a with
    | ⟨0, _⟩ =>
      show win0_3.index t 0 * 5000 ≤ (i 0).val ∧ (i 0).val < win0_3.index t 0 * 5000 + 5000
      rw [e30]
      show (i 0).val / 5000 * 5000 ≤ (i 0).val ∧ (i 0).val < (i 0).val / 5000 * 5000 + 5000
      omega
    | ⟨1, _⟩ =>
      show win0_3.index t 1 * 64 ≤ (i 1).val ∧ (i 1).val < win0_3.index t 1 * 64 + 64
      rw [e31]; omega

end Cert.KernelIdeal.KBlock0

end
-- ==== Proof.KBlock1.lean ====
/-
  The second kernel, read as one array. Point t stages rows 5000·t … 5000·t + 4999 of the accumulated features and of
  the weight column, the bias row and the whole transposed weight matrix. On its rows it forms
  max(dc · a + bias, 0) — the first layer's output —, multiplies that by the matrix, accumulated from zero, and
  scales each row by its weight again. The twenty blocks tile the result array, so after the region entry (n, j) is
    dc[n, 0] · Σₖ max(dc[n, 0] · a[n, k] + b[0, k], 0) · wt[k, j].
-/
import proofs.«165854_j3264175145417_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«165854_j3264175145417_2_alg».proof.Proof.LibMatmulNN
import proofs.«165854_j3264175145417_2_alg».proof.Proof.LibColumnLayout

set_option maxRecDepth 16384

noncomputable section

namespace Cert.KernelIdeal.KBlock1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The first layer's output at (n, k): the accumulated row scaled by the node's weight, plus the bias, floored at 0. -/
def hidden (a : FVec Ideal S100000x64 .f32) (dc : FVec Ideal S100000x1 .f32) (b : FVec Ideal S1x64 .f32)
    (n : Fin 100000) (k : Fin 64) : EReal :=
  max (dc (ix2 n (0 : Fin 1)) * a (ix2 n k) + b (ix2 (0 : Fin 1) k)) 0

/-- Entry (n, j) of the second projection. -/
def proj (a : FVec Ideal S100000x64 .f32) (dc : FVec Ideal S100000x1 .f32) (b : FVec Ideal S1x64 .f32)
    (wt : FVec Ideal S64x64 .f32) : FVec Ideal S100000x64 .f32 :=
  fun i => dc (ix2 (i 0) (0 : Fin 1)) * ∑ k : Fin 64, hidden a dc b (i 0) k * wt (ix2 k (i 1))

/-- What the body stores, at (p, q) of its block. -/
theorem pay_apply (x0 : Vec Ideal S5000x64 .f32) (x1 : Vec Ideal S5000x1 .f32) (x2 : Vec Ideal S1x64 .f32)
    (x3 : Vec Ideal S64x64 .f32) (p : Fin 5000) (q : Fin 64) :
    k1_pay1 (F := Ideal) x0 x1 x2 x3 (ix2 p q)
      = x1 (ix2 p (0 : Fin 1)) * ∑ k : Fin 64,
          max (x1 (ix2 p (0 : Fin 1)) * x0 (ix2 p k) + x2 (ix2 (0 : Fin 1) k)) 0 * x3 (ix2 k q) := by
  unfold k1_pay1
  rw [shapeCast_self, shapeCast_self, shapeCast_self, shapeCast_self]
  refine (mulf_apply _ _ _).trans ?_
  refine congrArg₂ (· * ·) (broadcastTo_a1_ab_apply x1 _ p q) ?_
  refine (LibMatmulNN.matmul_zero_apply 5000 64 64 none _ (truncf .bf16 x3 bitsLt_bf16_f32) p q).trans ?_
  refine Finset.sum_congr rfl fun k _ => ?_
  refine congrArg (· * x3 (ix2 k q)) ?_
  show max (broadcastTo S5000x64 x1 broadcasts_S5000x1_S5000x64 (ix2 p k) * x0 (ix2 p k)
      + broadcastTo S5000x64 x2 broadcasts_S1x64_S5000x64 (ix2 p k)) (Ideal.ofBits .f32 0x00000000#32) = _
  rw [broadcastTo_a1_ab_apply x1 _ p k, broadcastTo_1b_ab_apply x2 _ p k, Ideal.ofBits_zero_f32]

/-- The printed index maps over the grid. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blk0_apply (c : Dev nD) (t : Fin cfg1.N) (p : Fin 5000) (k : Fin 64) (n : Fin 100000)
    (hn : n.val = t.val * 5000 + p.val) :
    (iblk1 V c 0 t : Vec Ideal S5000x64 .f32) (ix2 p k) = (V c main_v27 : FVec Ideal S100000x64 .f32) (ix2 n k) := by
  obtain ⟨e00, e01, -⟩ := idx_facts t
  unfold iblk1
  rw [View.read_apply]
  show V c main_v27 _ = V c main_v27 _
  congr 1
  funext a
  apply Fin.ext
  match a with
  | ⟨0, _⟩ => show win1_0.index t 0 * 5000 + 1 * p.val = n.val; rw [e00, hn]; omega
  | ⟨1, _⟩ => show win1_0.index t 1 * 64 + 1 * k.val = k.val; rw [e01]; omega

theorem blk1_apply (c : Dev nD) (t : Fin cfg1.N) (p : Fin 5000) (n : Fin 100000)
    (hn : n.val = t.val * 5000 + p.val) :
    (iblk1 V c 1 t : Vec Ideal S5000x1 .f32) (ix2 p (0 : Fin 1)) = (V c main_v15 : FVec Ideal S100000x1 .f32) (ix2 n (0 : Fin 1)) := by
  obtain ⟨-, -, e10, e11, -⟩ := idx_facts t
  unfold iblk1
  rw [View.read_apply]
  show V c main_v15 _ = V c main_v15 _
  congr 1
  funext a
  apply Fin.ext
  match a with
  | ⟨0, _⟩ => show win1_1.index t 0 * 5000 + 1 * p.val = n.val; rw [e10, hn]; omega
  | ⟨1, _⟩ => show win1_1.index t 1 * 1 + 1 * 0 = 0; rw [e11]

theorem blk2_apply (c : Dev nD) (t : Fin cfg1.N) (k : Fin 64) :
    (iblk1 V c 2 t : Vec Ideal S1x64 .f32) (ix2 (0 : Fin 1) k) = (V c main_v28 : FVec Ideal S1x64 .f32) (ix2 (0 : Fin 1) k) := by
  obtain ⟨-, -, -, -, e20, e21, -⟩ := idx_facts t
  unfold iblk1
  rw [View.read_apply]
  show V c main_v28 _ = V c main_v28 _
  congr 1
  funext a
  apply Fin.ext
  match a with
  | ⟨0, _⟩ => show win1_2.index t 0 * 1 + 1 * 0 = 0; rw [e20]
  | ⟨1, _⟩ => show win1_2.index t 1 * 64 + 1 * k.val = k.val; rw [e21]; omega

theorem blk3_apply (c : Dev nD) (t : Fin cfg1.N) (k : Fin 64) (q : Fin 64) :
    (iblk1 V c 3 t : Vec Ideal S64x64 .f32) (ix2 k q) = (V c main_v29 : FVec Ideal S64x64 .f32) (ix2 k q) := by
  obtain ⟨-, -, -, -, -, -, e30, e31, -⟩ := idx_facts t
  unfold iblk1
  rw [View.read_apply]
  show V c main_v29 _ = V c main_v29 _
  congr 1
  funext a
  apply Fin.ext
  match a with
  | ⟨0, _⟩ => show win1_3.index t 0 * 64 + 1 * k.val = k.val; rw [e30]; omega
  | ⟨1, _⟩ => show win1_3.index t 1 * 64 + 1 * q.val = q.val; rw [e31]; omega

theorem emb4_apply (t : Fin cfg1.N) (p : Fin 5000) (q : Fin 64) (n : Fin 100000) (hn : n.val = t.val * 5000 + p.val) :
    ((cfg1.win 4).blk t).view.emb (ix2 p q) = (ix2 n q : S100000x64.Idx) := by
  obtain ⟨-, -, -, -, -, -, -, -, e40, e41⟩ := idx_facts t
  funext a
  apply Fin.ext
  match a with
  | ⟨0, _⟩ => show win1_4.index t 0 * 5000 + 1 * p.val = n.val; rw [e40, hn]; omega
  | ⟨1, _⟩ => show win1_4.index t 1 * 64 + 1 * q.val = q.val; rw [e41]; omega

/-- WHAT POINT t WRITES BACK is block t of the second projection of the arrays as the region finds them. -/
theorem flushed_eq (c : Dev nD) (t : Fin cfg1.N) :
    (dat1 V c).flushed 4 t = ((cfg1.win 4).blk t).view.read (Elt Ideal)
      (proj (V c main_v27) (V c main_v15) (V c main_v28) (V c main_v29)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz, View.ld_unit_zero (S := S64x64) hz]
  funext j
  obtain ⟨p, q, rfl⟩ : ∃ (p : Fin 5000) (q : Fin 64), j = ix2 p q := ⟨j 0, j 1, eq_ix2 j⟩
  have ht : t.val < 20 := lt_of_lt_of_eq t.isLt N_1
  have hp := p.isLt
  let n : Fin 100000 := ⟨t.val * 5000 + p.val, by omega⟩
  have hn : n.val = t.val * 5000 + p.val := rfl
  show k1_pay1 (F := Ideal) (iblk1 V c 0 t) (iblk1 V c 1 t) (iblk1 V c 2 t) (iblk1 V c 3 t) (ix2 p q)
    = proj (V c main_v27) (V c main_v15) (V c main_v28) (V c main_v29) (((cfg1.win 4).blk t).view.emb (ix2 p q))
  refine (pay_apply (iblk1 V c 0 t) (iblk1 V c 1 t) (iblk1 V c 2 t) (iblk1 V c 3 t) p q).trans ?_
  rw [emb4_apply t p q n hn, blk1_apply V c t p n hn]
  unfold proj hidden
  refine congrArg _ (Finset.sum_congr rfl fun k _ => ?_)
  rw [blk0_apply V c t p k n hn, blk2_apply V c t k, blk3_apply V c t k q]

theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v30).slice (win1_4.rect t)).set ↔ _
  rw [View.set_slice_whole, Rect.mem_set_unit]
  exact Iff.rfl

/-- THE RESULT ARRAY after the region. -/
theorem final (c : Dev nD) :
    (dat1 V c).arrAt 4 cfg1.N = proj (V c main_v27) (V c main_v15) (V c main_v28) (V c main_v29) :=
  (dat1 V c).arrAt_eq_of_cover 4 _ (fun t _ => flushed_eq V c t) fun i => by
    have hi0 : (i 0).val < 100000 := (i 0).isLt
    have hi1 : (i 1).val < 64 := (i 1).isLt
    have hN : cfg1.N = 20 := N_1
    let t : Fin cfg1.N := ⟨(i 0).val / 5000, by rw [hN]; omega⟩
    obtain ⟨-, -, -, -, -, -, -, -, e40, e41⟩ := idx_facts t
    refine ⟨t, flush1_4 t, ?_⟩
    rw [mem_blk]
    intro a
    match a with
    | ⟨0, _⟩ =>
      show win1_4.index t 0 * 5000 ≤ (i 0).val ∧ (i 0).val < win1_4.index t 0 * 5000 + 5000
      rw [e40]
      show (i 0).val / 5000 * 5000 ≤ (i 0).val ∧ (i 0).val < (i 0).val / 5000 * 5000 + 5000
      omega
    | ⟨1, _⟩ =>
      show win1_4.index t 1 * 64 ≤ (i 1).val ∧ (i 1).val < win1_4.index t 1 * 64 + 64
      rw [e41]; omega

end Cert.KernelIdeal.KBlock1

end
-- ==== Proof.KValue.lean ====
/-
  The idealized kernel program's result as ONE function of its six argument arrays: the boundary contents of the
  run, read back segment by segment. The first kernel leaves the scaled projection of the features; the middle host
  stretch gathers and accumulates it; the second kernel leaves the scaled projection of the first layer's output; the
  last host stretch gathers and accumulates again, scales and adds the bias.
-/
import proofs.«165854_j3264175145417_2_alg».proof.Proof.KRun
import proofs.«165854_j3264175145417_2_alg».proof.Proof.KWalk
import proofs.«165854_j3264175145417_2_alg».proof.Proof.KBlock0
import proofs.«165854_j3264175145417_2_alg».proof.Proof.KBlock1

set_option maxHeartbeats 2000000
set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KWalk

/-- The result array of the kernel program, from the argument arrays. -/
def kernelValue (x0 : FVec Ideal S100000x128 .f32) (x1 : IVec S2x1600000 32) (x2 : FVec Ideal S64x128 .f32)
    (x3 : FVec Ideal S64 .f32) (x4 : FVec Ideal S64x64 .f32) (x5 : FVec Ideal S64 .f32) : FVec Ideal S100000x64 .f32 :=
  tail (F := Ideal)
    (shapeCast S100000x1 (dinvV (F := Ideal) x1) shapeCasts_S100000_S100000x1)
    (dstV x1) (srcV x1)
    (KBlock1.proj
      (agg (F := Ideal) (dstV x1) (srcV x1)
        (KBlock0.proj x0 (transpose S128x64 [1, 0] x2 transposes_S64x128_S128x64_1_0)
          (shapeCast S100000x1 (dinvV (F := Ideal) x1) shapeCasts_S100000_S100000x1)))
      (shapeCast S100000x1 (dinvV (F := Ideal) x1) shapeCasts_S100000_S100000x1)
      (shapeCast S1x64 x3 shapeCasts_S64_S1x64)
      (transpose S64x64 [1, 0] x4 transposes_S64x64_S64x64_1_0))
    x5

variable (m : (ℓ : Loc nD τ sig) → Buf (Elt Ideal) ℓ) (ρ : Dev nD → PrngReg)

/-- What the last boundary holds in the result's buffer is that function of the launch contents of the arguments. -/
theorem result_eq (c : Dev nD) :
    W7 m ρ c (Proc.devRef .tc main_v45)
      = kernelValue (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- at the first kernel's entry
  have hX : V3 m ρ c main_arg0 = m ((c.tc : Thread nD τ).loc main_arg0) := W3_arg0 m ρ c
  have hWT : V3 m ρ c main_v16 = transpose S128x64 [1, 0] (m ((c.tc : Thread nD τ).loc main_arg2)) transposes_S64x128_S128x64_1_0 :=
    W3_v16 m ρ c
  have hDC3 : V3 m ρ c main_v15
      = shapeCast S100000x1 (dinvV (F := Ideal) (m ((c.tc : Thread nD τ).loc main_arg1))) shapeCasts_S100000_S100000x1 := W3_v15 m ρ c
  -- at its exit
  have h17 := (W4_v17 m ρ c).trans (KBlock0.final (V3 m ρ) c)
  rw [hX, hWT, hDC3] at h17
  have hDC4 := (W4_v15 m ρ c).trans (W3_v15 m ρ c)
  have h6_4 := (W4_v6 m ρ c).trans (W3_v6 m ρ c)
  have h3_4 := (W4_v3 m ρ c).trans (W3_v3 m ρ c)
  have ha3_4 := (W4_arg3 m ρ c).trans (W3_arg3 m ρ c)
  have ha4_4 := (W4_arg4 m ρ c).trans (W3_arg4 m ρ c)
  have ha5_4 := (W4_arg5 m ρ c).trans (W3_arg5 m ρ c)
  -- at the second kernel's entry
  have h27 : V5 m ρ c main_v27 = _ := W5_v27 m ρ c
  rw [h6_4, h3_4, h17] at h27
  have hDC5 : V5 m ρ c main_v15 = _ := (W5_v15 m ρ c).trans hDC4
  have h28 : V5 m ρ c main_v28 = _ := W5_v28 m ρ c
  rw [ha3_4] at h28
  have h29 : V5 m ρ c main_v29 = _ := W5_v29 m ρ c
  rw [ha4_4] at h29
  -- at its exit
  have h30 := (W6_v30 m ρ c).trans (KBlock1.final (V5 m ρ) c)
  rw [h27, hDC5, h28, h29] at h30
  have hDC6 := (W6_v15 m ρ c).trans ((W5_v15 m ρ c).trans hDC4)
  have h6_6 := (W6_v6 m ρ c).trans ((W5_v6 m ρ c).trans h6_4)
  have h3_6 := (W6_v3 m ρ c).trans ((W5_v3 m ρ c).trans h3_4)
  have ha5_6 := (W6_arg5 m ρ c).trans ((W5_arg5 m ρ c).trans ha5_4)
  rw [W7_v45, hDC6, h6_6, h3_6, h30, ha5_6]
  rfl

/-- The run, read: the result array at `kernelValue` of the arguments, the arguments unchanged. -/
theorem run : θ_run defs (onTc (τ := τ) (main (F := Ideal))) ⟨m, fun _ => 0, ρ⟩ (fun r => ∀ c : Dev nD,
      r.2.mem ((c.tc : Thread nD τ).loc main_v45)
        = kernelValue (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.KRun.run_result (F := Ideal) m ρ)

end Cert.KernelIdeal.KValue

end
-- ==== Proof.LibScatterAddFinite.lean ====
/-
  The host's accumulating scatter and its gather on the extended reals: what the entries of their results are when the
  entries of their operands are reals.

  At the ideal instance an accumulating scatter's result at an index `i` is the operand's entry at `i` plus the sum of
  the updates whose result index is `i`. A finite sum of reals is a real, so the result's entries are reals when the
  operand's and the updates' are; and when the operand is 0 everywhere and every update is 1, the entry at `i` is the
  NUMBER of updates landing at `i`, a natural number. A gather's result entry is the operand's entry at a computed
  index, so it is a real when the operand's entries are. All of it holds for any shapes, any dimension numbers and any
  index arrays. (A count above 0 is at least 1, and one that is not above 0 is 0: the two facts a guarded mean needs.)
-/
import Idealize.ShloMosaic.PureOps.Ideal
import Idealize.ShloMosaic.PureOps

noncomputable section

open scoped BigOperators

namespace Cert.ScatterAddFinite

open Idealize.ShloMosaic

/-- A finite sum, in the extended reals, of terms that are reals is a real. -/
theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- The accumulating scatter at an index, on the extended reals: the operand's entry there plus the sum of the updates
    whose result index is that index. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- (a) When every entry of the operand and every update is a real, every entry of the accumulating scatter's result
    is a real, whatever the indices. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  obtain ⟨rx, hrx⟩ := hx i
  obtain ⟨rs, hrs⟩ :=
    exists_real_sum (Finset.univ.filter (fun j => d.resultIdx? j idx = some i)) upd (fun j _ => hu j)
  exact ⟨rx + rs, by rw [scatterAdd_apply, hrx, hrs, EReal.coe_add]⟩

/-- (b), with the number named: when the operand is 0 everywhere and every update is 1, the accumulating scatter's
    entry at `i` is the number of updates whose result index is `i`. -/
theorem scatterAdd_zero_one_apply {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    Host.scatterAdd (F := Ideal) d x idx upd i
      = (((Finset.univ.filter (fun j => d.resultIdx? j idx = some i)).card : ℝ) : EReal) := by
  rw [scatterAdd_apply, hx i, zero_add, Finset.sum_congr rfl (fun j _ => hu j), Finset.sum_const,
    EReal.nsmul_eq_mul, mul_one]
  exact (EReal.coe_coe_eq_natCast _).symm

/-- (b) When the operand is 0 everywhere and every update is 1, every entry of the accumulating scatter's result is a
    natural number, whatever the indices. -/
theorem scatterAdd_zero_one_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    ∃ n : ℕ, Host.scatterAdd (F := Ideal) d x idx upd i = ((n : ℝ) : EReal) :=
  ⟨_, scatterAdd_zero_one_apply d x idx upd hx hu i⟩

/-- A natural number above 0 is at least 1: its maximum with 1, in the extended reals, is itself. -/
theorem natCast_max_one_of_pos (n : ℕ) (h : (0 : EReal) < ((n : ℝ) : EReal)) :
    max ((n : ℝ) : EReal) 1 = ((n : ℝ) : EReal) := by
  have h1 : 0 < n := Nat.cast_pos.1 (EReal.coe_pos.1 h)
  have h2 : (1 : ℝ) ≤ (n : ℝ) := Nat.one_le_cast.2 h1
  refine max_eq_left ?_
  rw [← EReal.coe_one]
  exact EReal.coe_le_coe_iff.2 h2

/-- A natural number not above 0 is 0, in the extended reals. -/
theorem natCast_eq_zero_of_not_pos (n : ℕ) (h : ¬ (0 : EReal) < ((n : ℝ) : EReal)) : ((n : ℝ) : EReal) = 0 := by
  have h1 : ¬ 0 < n := fun hn => h (EReal.coe_pos.2 (Nat.cast_pos.2 hn))
  have h2 : n = 0 := Nat.eq_zero_of_not_pos h1
  rw [h2, Nat.cast_zero, EReal.coe_zero]

/-- A natural number above 0, as an extended real, is not 0. -/
theorem natCast_ne_zero_of_pos (n : ℕ) (h : (0 : EReal) < ((n : ℝ) : EReal)) : ((n : ℝ) : EReal) ≠ 0 :=
  ne_of_gt h

/-- A gather's result entry is the operand's entry at the operand index the dimension numbers compute. -/
theorem gather_apply {s si t : Shape} {α : Type} {w : Nat} (d : GatherDims s si t) (x : s.Idx → α) (idx : IVec si w)
    (j : t.Idx) : Host.gather d x idx j = x (d.operandIdx j idx) := rfl

/-- (c) Every entry of a gather's result is an entry of its operand. -/
theorem gather_mem {s si t : Shape} {α : Type} {w : Nat} (d : GatherDims s si t) (x : s.Idx → α) (idx : IVec si w)
    (j : t.Idx) : ∃ k : s.Idx, Host.gather d x idx j = x k := ⟨_, rfl⟩

/-- (c) Every entry of a gather's result is a real when every entry of its operand is, whatever the indices. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

end Cert.ScatterAddFinite

end
-- ==== Proof.LibGraphIdx.lean ====
/-
  The host's row gather and row scatter-add of this graph convolution, read at an index.

  The index array has one start index per edge, shape [E, 1]. A gather of rows reads, for edge `e`, the row whose number
  is the edge's start index read signed, negatives taken to 0, clamped to the last row; it reads the same row of a matrix
  [N, D] and of a vector [N]. An accumulating scatter of rows adds edge `e`'s update row into the row whose number is the
  edge's start index read signed, when that number is a row's, and drops it otherwise; so the entry (p, q) of the result
  is the operand's entry plus the sum, over the edges whose start index is `p`, of the updates' entries (e, q).
-/
import Idealize.ShloMosaic.PureOps.Ideal
import Idealize.ShloMosaic.PureOps
import Idealize.ShloMosaic.Lib.ValueIdx
import proofs.«165854_j3264175145417_2_alg».proof.Proof.LibScatterAddFinite

noncomputable section

open scoped BigOperators

namespace Cert.GraphIdx

open Idealize.ShloMosaic Idealize.ShloMosaic.ValueIdx

variable {N E D : Nat}

/-- The row a start index selects for a gather: read signed, negatives to 0, clamped to the last row. -/
def rowOf (hN : 0 < N) {w : Nat} (idx : IVec ⟨2, ![E, 1]⟩ w) (e : Fin E) : Fin N :=
  ⟨min (idx (ix2 e 0)).toInt.toNat (N - 1), by omega⟩

/-- A start index that IS a row's number selects that row. -/
theorem rowOf_eq (hN : 0 < N) {w : Nat} (idx : IVec ⟨2, ![E, 1]⟩ w) (e : Fin E) (p : Fin N)
    (h : (idx (ix2 e 0)).toInt = (p.val : Int)) : rowOf hN idx e = p := by
  apply Fin.ext
  show min (idx (ix2 e 0)).toInt.toNat (N - 1) = p.val
  rw [h, Int.toNat_natCast]
  have := p.isLt
  omega

/-! ## The gathers -/

/-- The dimension numbers of a gather of rows of an [N, D] matrix by an [E, 1] index array. -/
abbrev gd2 (wf : GatherDims.WF ⟨2, ![N, D]⟩ ⟨2, ![E, 1]⟩ ⟨2, ![E, D]⟩ [1] [0] [] [0] [] 1 ![1, D]) : GatherDims ⟨2, ![N, D]⟩ ⟨2, ![E, 1]⟩ ⟨2, ![E, D]⟩ :=
  { offsetDims := [1], collapsedSliceDims := [0], operandBatchingDims := [], startIndicesBatchingDims := [],
    startIndexMap := [0], indexVectorDim := 1, sliceSizes := ![1, D], wf := wf }

/-- The operand index a row gather of a matrix reads at result index (e, q): (the edge's row, q). -/
theorem gd2_operandIdx (wf : GatherDims.WF ⟨2, ![N, D]⟩ ⟨2, ![E, 1]⟩ ⟨2, ![E, D]⟩ [1] [0] [] [0] [] 1 ![1, D]) (hN : 0 < N) {w : Nat} (idx : IVec ⟨2, ![E, 1]⟩ w) (e : Fin E) (q : Fin D) :
    (gd2 (N := N) (E := E) (D := D) wf).operandIdx (ix2 e q) idx = ix2 (rowOf hN idx e) q := by
  funext a
  apply Fin.ext
  match a with
  | ⟨0, _⟩ =>
    show (gd2 wf).start (ix2 e q) idx 0 + (gd2 wf).batchCoord (ix2 e q) 0 + (gd2 wf).offCoord (ix2 e q) 0 = min (idx (ix2 e 0)).toInt.toNat (N - 1)
    have h1 : (gd2 wf).batchCoord (ix2 e q) 0 = 0 :=
      (gd2 wf).batchCoord_eq_zero _ _ (show (0 : Fin 2) ∉ ([] : List (Fin 2)) by decide)
    have h2 : (gd2 wf).offCoord (ix2 e q) 0 = 0 :=
      (gd2 wf).offCoord_eq_zero _ _ (show (0 : Fin 2) ∉ ([1] : List (Fin 2)) by decide)
    have h3 : (gd2 wf).start (ix2 e q) idx 0 = min (idx (ix2 e 0)).toInt.toNat (N - 1) := by
      unfold GatherDims.start
      rw [dif_pos (show (0 : Fin 2) ∈ ([0] : List (Fin 2)) by decide)]
      have hs : ∀ hh, (gd2 wf).siIdx (ix2 e q) ⟨List.idxOf (0 : Fin 2) ([0] : List (Fin 2)), hh⟩ = ix2 e 0 := by
        intro hh
        funext b
        apply Fin.ext
        match b with
        | ⟨0, _⟩ => rfl
        | ⟨1, _⟩ => rfl
      rw [hs]
      rfl
    omega
  | ⟨1, _⟩ =>
    show (gd2 wf).start (ix2 e q) idx 1 + (gd2 wf).batchCoord (ix2 e q) 1 + (gd2 wf).offCoord (ix2 e q) 1 = q.val
    have h1 : (gd2 wf).batchCoord (ix2 e q) 1 = 0 :=
      (gd2 wf).batchCoord_eq_zero _ _ (show (1 : Fin 2) ∉ ([] : List (Fin 2)) by decide)
    have h0 : (gd2 wf).start (ix2 e q) idx 1 = 0 := by
      unfold GatherDims.start
      rw [dif_neg (show (1 : Fin 2) ∉ ([0] : List (Fin 2)) by decide)]
    have h3 : (gd2 wf).offCoord (ix2 e q) 1 = q.val := by
      unfold GatherDims.offCoord
      have hm : (1 : Fin 2) ∈ (gd2 wf).sKept := (show (1 : Fin 2) ∈ ([1] : List (Fin 2)) by decide)
      rw [dif_pos hm]
      rfl
    omega

/-- A gather of rows of a matrix reads, at (e, q), the matrix at (the edge's row, q). -/
theorem gather2_apply {α : Type} (wf : GatherDims.WF ⟨2, ![N, D]⟩ ⟨2, ![E, 1]⟩ ⟨2, ![E, D]⟩ [1] [0] [] [0] [] 1 ![1, D]) (hN : 0 < N) {w : Nat}
    (x : (⟨2, ![N, D]⟩ : Shape).Idx → α) (idx : IVec ⟨2, ![E, 1]⟩ w) (e : Fin E) (q : Fin D) :
    Host.gather (gd2 wf) x idx (ix2 e q) = x (ix2 (rowOf hN idx e) q) := by
  rw [Cert.ScatterAddFinite.gather_apply, gd2_operandIdx wf hN]

/-- The dimension numbers of a gather of entries of an [N] vector by an [E, 1] index array. -/
abbrev gd1 (wf : GatherDims.WF ⟨1, ![N]⟩ ⟨2, ![E, 1]⟩ ⟨1, ![E]⟩ [] [0] [] [0] [] 1 ![1]) : GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- The operand index a gather of a vector's entries reads at result index e: the edge's row. -/
theorem gd1_operandIdx (wf : GatherDims.WF ⟨1, ![N]⟩ ⟨2, ![E, 1]⟩ ⟨1, ![E]⟩ [] [0] [] [0] [] 1 ![1]) (hN : 0 < N) {w : Nat} (idx : IVec ⟨2, ![E, 1]⟩ w) (e : Fin E) :
    (gd1 (N := N) (E := E) wf).operandIdx (ix1 e) idx = ix1 (rowOf hN idx e) := by
  funext a
  apply Fin.ext
  match a with
  | ⟨0, _⟩ =>
    show (gd1 wf).start (ix1 e) idx 0 + (gd1 wf).batchCoord (ix1 e) 0 + (gd1 wf).offCoord (ix1 e) 0 = min (idx (ix2 e 0)).toInt.toNat (N - 1)
    have h1 : (gd1 wf).batchCoord (ix1 e) 0 = 0 :=
      (gd1 wf).batchCoord_eq_zero _ _ (show (0 : Fin 1) ∉ ([] : List (Fin 1)) by decide)
    have h2 : (gd1 wf).offCoord (ix1 e) 0 = 0 :=
      (gd1 wf).offCoord_eq_zero _ _ (show (0 : Fin 1) ∉ ([] : List (Fin 1)) by decide)
    have h3 : (gd1 wf).start (ix1 e) idx 0 = min (idx (ix2 e 0)).toInt.toNat (N - 1) := by
      unfold GatherDims.start
      rw [dif_pos (show (0 : Fin 1) ∈ ([0] : List (Fin 1)) by decide)]
      have hs : ∀ hh, (gd1 wf).siIdx (ix1 e) ⟨List.idxOf (0 : Fin 1) ([0] : List (Fin 1)), hh⟩ = ix2 e 0 := by
        intro hh
        funext b
        apply Fin.ext
        match b with
        | ⟨0, _⟩ => rfl
        | ⟨1, _⟩ => rfl
      rw [hs]
      rfl
    omega

/-- A gather of entries of a vector reads, at e, the vector at the edge's row: the SAME row as the matrix gather's. -/
theorem gather1_apply {α : Type} (wf : GatherDims.WF ⟨1, ![N]⟩ ⟨2, ![E, 1]⟩ ⟨1, ![E]⟩ [] [0] [] [0] [] 1 ![1]) (hN : 0 < N) {w : Nat}
    (x : (⟨1, ![N]⟩ : Shape).Idx → α) (idx : IVec ⟨2, ![E, 1]⟩ w) (e : Fin E) :
    Host.gather (gd1 wf) x idx (ix1 e) = x (ix1 (rowOf hN idx e)) := by
  rw [Cert.ScatterAddFinite.gather_apply, gd1_operandIdx wf hN]

/-! ## The accumulating scatters -/

/-- The dimension numbers of an accumulating scatter of [E, D] update rows into an [N, D] matrix by an [E, 1] index array. -/
abbrev sd2 (wf : ScatterDims.WF ⟨2, ![N, D]⟩ ⟨2, ![E, 1]⟩ ⟨2, ![E, D]⟩ [1] [0] [0] 1) : ScatterDims ⟨2, ![N, D]⟩ ⟨2, ![E, 1]⟩ ⟨2, ![E, D]⟩ :=
  { updateWindowDims := [1], insertedWindowDims := [0], scatterDimsToOperandDims := [0], indexVectorDim := 1, wf := wf }

theorem sd2_start0 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 0 = (idx (ix2 e 0)).toInt := by
  unfold ScatterDims.start
  rw [dif_pos (show (0 : Fin 2) ∈ ([0] : List (Fin 2)) by decide)]
  have hs : ∀ hh, (sd2 wf).siIdx (ix2 e q) ⟨List.idxOf (0 : Fin 2) ([0] : List (Fin 2)), hh⟩ = ix2 e 0 := by
    intro hh
    funext b
    apply Fin.ext
    match b with
    | ⟨0, _⟩ => rfl
    | ⟨1, _⟩ => rfl
  rw [hs]

theorem sd2_start1 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 1 = 0 := by
  unfold ScatterDims.start
  rw [dif_neg (show (1 : Fin 2) ∉ ([0] : List (Fin 2)) by decide)]

theorem sd2_window0 (wf : ScatterDims.WF ⟨2, ![N, D]⟩ ⟨2, ![E, 1]⟩ ⟨2, ![E, D]⟩ [1] [0] [0] 1) (e : Fin E) (q : Fin D) : (sd2 (N := N) wf).window (ix2 e q) 0 = 0 := by
  unfold ScatterDims.window
  have hm : (0 : Fin 2) ∉ (sd2 wf).sKept := (show (0 : Fin 2) ∉ ([1] : List (Fin 2)) by decide)
  rw [dif_neg hm]

theorem sd2_window1 (wf : ScatterDims.WF ⟨2, ![N, D]⟩ ⟨2, ![E, 1]⟩ ⟨2, ![E, D]⟩ [1] [0] [0] 1) (e : Fin E) (q : Fin D) : (sd2 (N := N) wf).window (ix2 e q) 1 = q.val := by
  unfold ScatterDims.window
  have hm : (1 : Fin 2) ∈ (sd2 wf).sKept := (show (1 : Fin 2) ∈ ([1] : List (Fin 2)) by decide)
  rw [dif_pos hm]
  rfl

/-- Update index (e, q) lands on (p, q') exactly when edge e's start index, read signed, is p, and q = q'. -/
theorem sd2_lands (wf : ScatterDims.WF ⟨2, ![N, D]⟩ ⟨2, ![E, 1]⟩ ⟨2, ![E, D]⟩ [1] [0] [0] 1) {w : Nat} (idx : IVec ⟨2, ![E, 1]⟩ w) (e : Fin E) (q : Fin D) (p : Fin N) (q' : Fin D) :
    (sd2 wf).resultIdx? (ix2 e q) idx = some (ix2 p q') ↔ (idx (ix2 e 0)).toInt = (p.val : Int) ∧ q = q' := by
  have s0 := sd2_start0 (N := N) wf idx e q
  have s1 := sd2_start1 (N := N) wf idx e q
  have w0 := sd2_window0 (N := N) wf e q
  have w1 := sd2_window1 (N := N) wf e q
  have hp := p.isLt
  have hq := q.isLt
  unfold ScatterDims.resultIdx?
  split
  · rename_i h
    rw [Option.some.injEq]
    constructor
    · intro hf
      have h0 := congrArg (fun f => (f 0).val) hf
      have h1 := congrArg (fun f => (f 1).val) hf
      have a0 := h 0
      simp only [s0, w0] at h0 a0
      simp only [s1, w1] at h1
      refine ⟨?_, Fin.ext ?_⟩
      · change ((idx (ix2 e 0)).toInt + ((0 : Nat) : Int)).toNat = p.val at h0
        omega
      · change ((0 : Int) + (q.val : Int)).toNat = q'.val at h1
        omega
    · rintro ⟨hi, rfl⟩
      funext a
      apply Fin.ext
      match a with
      | ⟨0, _⟩ =>
        show ((sd2 wf).start (ix2 e q) idx 0 + ((sd2 wf).window (ix2 e q) 0 : Int)).toNat = p.val
        rw [s0, w0]; omega
      | ⟨1, _⟩ =>
        show ((sd2 wf).start (ix2 e q) idx 1 + ((sd2 wf).window (ix2 e q) 1 : Int)).toNat = q.val
        rw [s1, w1]; omega
  · rename_i h
    constructor
    · intro hf; exact absurd hf (by simp)
    · rintro ⟨hi, rfl⟩
      exfalso
      apply h
      intro a
      match a with
      | ⟨0, _⟩ =>
        show 0 ≤ (sd2 wf).start (ix2 e q) idx 0 + ((sd2 wf).window (ix2 e q) 0 : Int) ∧ (sd2 wf).start (ix2 e q) idx 0 + ((sd2 wf).window (ix2 e q) 0 : Int) < (N : Int)
        rw [s0, w0]; omega
      | ⟨1, _⟩ =>
        show 0 ≤ (sd2 wf).start (ix2 e q) idx 1 + ((sd2 wf).window (ix2 e q) 1 : Int) ∧ (sd2 wf).start (ix2 e q) idx 1 + ((sd2 wf).window (ix2 e q) 1 : Int) < (D : Int)
        rw [s1, w1]; omega

/-- An accumulating scatter of rows, at (p, q): the operand's entry plus the sum, over the edges whose start index is p,
    of the updates' entries (e, q). -/
theorem scatterAdd2_apply (wf : ScatterDims.WF ⟨2, ![N, D]⟩ ⟨2, ![E, 1]⟩ ⟨2, ![E, D]⟩ [1] [0] [0] 1) {w : Nat} {φ : FTy} (x : FVec Ideal ⟨2, ![N, D]⟩ φ) (idx : IVec ⟨2, ![E, 1]⟩ w)
    (upd : FVec Ideal ⟨2, ![E, D]⟩ φ) (p : Fin N) (q : Fin D) :
    Host.scatterAdd (F := Ideal) (sd2 wf) x idx upd (ix2 p q)
      = x (ix2 p q) + ∑ e ∈ Finset.univ.filter (fun e : Fin E => (idx (ix2 e 0)).toInt = (p.val : Int)), upd (ix2 e q) := by
  classical
  rw [Cert.ScatterAddFinite.scatterAdd_apply]
  congr 1
  rw [Finset.sum_filter, sum_idx2, Finset.sum_filter]
  refine Finset.sum_congr rfl fun e _ => ?_
  by_cases hL : (idx (ix2 e 0)).toInt = (p.val : Int)
  · rw [if_pos hL]
    have : ∀ b : Fin D, (if (sd2 wf).resultIdx? (ix2 e b) idx = some (ix2 p q) then upd (ix2 e b) else 0)
        = if b = q then upd (ix2 e b) else 0 := by
      intro b
      by_cases hb : b = q
      · rw [if_pos hb, if_pos ((sd2_lands wf idx e b p q).2 ⟨hL, hb⟩)]
      · rw [if_neg hb, if_neg (fun h => hb ((sd2_lands wf idx e b p q).1 h).2)]
    rw [Finset.sum_congr rfl (fun b _ => this b), Finset.sum_ite_eq' Finset.univ q, if_pos (Finset.mem_univ q)]
  · rw [if_neg hL]
    refine Finset.sum_eq_zero fun b _ => ?_
    rw [if_neg (fun h => hL ((sd2_lands wf idx e b p q).1 h).1)]

/-- The dimension numbers of an accumulating scatter of [E] updates into an [N] vector by an [E, 1] index array. -/
abbrev sd1 (wf : ScatterDims.WF ⟨1, ![N]⟩ ⟨2, ![E, 1]⟩ ⟨1, ![E]⟩ [] [0] [0] 1) : ScatterDims ⟨1, ![N]⟩ ⟨2, ![E, 1]⟩ ⟨1, ![E]⟩ :=
  { updateWindowDims := [], insertedWindowDims := [0], scatterDimsToOperandDims := [0], indexVectorDim := 1, wf := wf }

theorem sd1_start0 (wf : ScatterDims.WF ⟨1, ![N]⟩ ⟨2, ![E, 1]⟩ ⟨1, ![E]⟩ [] [0] [0] 1) {w : Nat} (idx : IVec ⟨2, ![E, 1]⟩ w) (e : Fin E) :
    (sd1 (N := N) wf).start (ix1 e) idx 0 = (idx (ix2 e 0)).toInt := by
  unfold ScatterDims.start
  rw [dif_pos (show (0 : Fin 1) ∈ ([0] : List (Fin 1)) by decide)]
  have hs : ∀ hh, (sd1 wf).siIdx (ix1 e) ⟨List.idxOf (0 : Fin 1) ([0] : List (Fin 1)), hh⟩ = ix2 e 0 := by
    intro hh
    funext b
    apply Fin.ext
    match b with
    | ⟨0, _⟩ => rfl
    | ⟨1, _⟩ => rfl
  rw [hs]

theorem sd1_window0 (wf : ScatterDims.WF ⟨1, ![N]⟩ ⟨2, ![E, 1]⟩ ⟨1, ![E]⟩ [] [0] [0] 1) (e : Fin E) : (sd1 (N := N) wf).window (ix1 e) 0 = 0 := by
  unfold ScatterDims.window
  have hm : (0 : Fin 1) ∉ (sd1 wf).sKept := (show (0 : Fin 1) ∉ ([] : List (Fin 1)) by decide)
  rw [dif_neg hm]

/-- Update index e lands on p exactly when edge e's start index, read signed, is p. -/
theorem sd1_lands (wf : ScatterDims.WF ⟨1, ![N]⟩ ⟨2, ![E, 1]⟩ ⟨1, ![E]⟩ [] [0] [0] 1) {w : Nat} (idx : IVec ⟨2, ![E, 1]⟩ w) (e : Fin E) (p : Fin N) :
    (sd1 wf).resultIdx? (ix1 e) idx = some (ix1 p) ↔ (idx (ix2 e 0)).toInt = (p.val : Int) := by
  have s0 := sd1_start0 (N := N) wf idx e
  have w0 := sd1_window0 (N := N) wf e
  have hp := p.isLt
  unfold ScatterDims.resultIdx?
  split
  · rename_i h
    rw [Option.some.injEq]
    constructor
    · intro hf
      have h0 := congrArg (fun f => (f 0).val) hf
      have a0 := h 0
      simp only [s0, w0] at h0 a0
      change ((idx (ix2 e 0)).toInt + ((0 : Nat) : Int)).toNat = p.val at h0
      omega
    · intro hi
      funext a
      apply Fin.ext
      match a with
      | ⟨0, _⟩ =>
        show ((sd1 wf).start (ix1 e) idx 0 + ((sd1 wf).window (ix1 e) 0 : Int)).toNat = p.val
        rw [s0, w0]; omega
  · rename_i h
    constructor
    · intro hf; exact absurd hf (by simp)
    · intro hi
      exfalso
      apply h
      intro a
      match a with
      | ⟨0, _⟩ =>
        show 0 ≤ (sd1 wf).start (ix1 e) idx 0 + ((sd1 wf).window (ix1 e) 0 : Int) ∧ (sd1 wf).start (ix1 e) idx 0 + ((sd1 wf).window (ix1 e) 0 : Int) < (N : Int)
        rw [s0, w0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- An accumulating scatter into a vector, at p: the operand's entry plus the sum of the updates of the edges whose
    start index is p. -/
theorem scatterAdd1_apply (wf : ScatterDims.WF ⟨1, ![N]⟩ ⟨2, ![E, 1]⟩ ⟨1, ![E]⟩ [] [0] [0] 1) {w : Nat} {φ : FTy} (x : FVec Ideal ⟨1, ![N]⟩ φ) (idx : IVec ⟨2, ![E, 1]⟩ w)
    (upd : FVec Ideal ⟨1, ![E]⟩ φ) (p : Fin N) :
    Host.scatterAdd (F := Ideal) (sd1 wf) x idx upd (ix1 p)
      = x (ix1 p) + ∑ e ∈ Finset.univ.filter (fun e : Fin E => (idx (ix2 e 0)).toInt = (p.val : Int)), upd (ix1 e) := by
  classical
  rw [Cert.ScatterAddFinite.scatterAdd_apply]
  congr 1
  rw [Finset.sum_filter, ← Equiv.sum_comp (idxEquiv1 (n := E)).symm, Finset.sum_filter]
  refine Finset.sum_congr rfl fun e _ => ?_
  show (if (sd1 wf).resultIdx? (ix1 e) idx = some (ix1 p) then upd (ix1 e) else 0) = _
  by_cases hL : (idx (ix2 e 0)).toInt = (p.val : Int)
  · rw [if_pos hL, if_pos ((sd1_lands wf idx e p).2 hL)]
  · rw [if_neg hL, if_neg (fun h => hL ((sd1_lands wf idx e p).1 h))]

end Cert.GraphIdx

end
-- ==== Proof.LibMeanAlgebra.lean ====
/-
  The algebra of a mean-aggregating graph layer on the extended reals.

  Three facts, none about any program:
  * a finite sum of nonnegative reals, taken in the extended reals, is a nonnegative real — so a node's in-degree,
    counted by adding a one for every incoming edge, is a nonnegative real, and its maximum with one is a positive real;
  * dividing every entry of a row by a positive real `y` BEFORE contracting the row with a column gives the
    contraction multiplied by `1 / y` AFTER: `∑ₖ (aₖ / y) · wₖ = (∑ₖ aₖ · wₖ) · (1 / y)`. On the extended reals this
    needs no finiteness of `a` or `w`: the reciprocal of a positive real is a nonnegative real different from `⊤`, and
    multiplication by such a factor distributes over every sum of extended reals, infinite terms included;
  * the float pattern of `1.0` denotes the real one.
-/
import Idealize.ShloMosaic.PureOps.Ideal.Laws

noncomputable section

open scoped BigOperators

namespace LibMeanAlgebra

open Idealize.ShloMosaic

/-- The pattern of `1.0` denotes one. -/
theorem ofBits_one : Ideal.ofBits .f32 0x3F800000#32 = 1 := by
  simp [Ideal.ofBits, Ideal.ieee, -EReal.coe_mul]; norm_num

/-- A finite sum of nonnegative reals, taken in the extended reals, is a nonnegative real. -/
theorem sum_real_nonneg {ι : Type} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨r, hr, e⟩ := hf a (Finset.mem_insert_self a s)
    obtain ⟨r', hr', e'⟩ := ih (fun j hj => hf j (Finset.mem_insert_of_mem hj))
    exact ⟨r + r', add_nonneg hr hr', by rw [Finset.sum_insert ha, e, e', EReal.coe_add]⟩

/-- COUNTING BY SCATTER: adding a one into a zero array for every update that lands on an element leaves, at every
    element, a nonnegative real (the number of updates that landed there). -/
theorem scatter_ones_real {s si su : Shape} (d : ScatterDims s si su) {w : Nat} (x : s.Idx → EReal) (idx : IVec si w)
    (upd : su.Idx → EReal) (i : s.Idx) (hx : x i = 0) (hu : ∀ j, upd j = 1) :
    ∃ r : ℝ, 0 ≤ r ∧ Ideal.hostScatterAdd d x idx upd i = (r : EReal) := by
  obtain ⟨r, hr, e⟩ := sum_real_nonneg (Finset.univ.filter fun j => d.resultIdx? j idx = some i) upd
    (fun j _ => ⟨1, zero_le_one, by rw [hu j, EReal.coe_one]⟩)
  exact ⟨r, hr, by unfold Ideal.hostScatterAdd; rw [hx, zero_add, e]⟩

/-- The maximum of a nonnegative real with one is a positive real. -/
theorem max_one_pos {z one : EReal} (hone : one = 1) (hz : ∃ r : ℝ, 0 ≤ r ∧ z = (r : EReal)) :
    ∃ y : ℝ, 0 < y ∧ max z one = (y : EReal) := by
  obtain ⟨r, _, rfl⟩ := hz
  refine ⟨max r 1, lt_of_lt_of_le zero_lt_one (le_max_right r 1), ?_⟩
  rw [hone, ← EReal.coe_one]
  exact (EReal.coe_strictMono.monotone.map_max).symm

/-- Multiplication by a nonnegative real distributes over a finite sum of extended reals. -/
theorem sum_mul_real {ι : Type} (s : Finset ι) (f : ι → EReal) {c : EReal} (hc : 0 ≤ c) (hct : c ≠ ⊤) :
    ∑ k ∈ s, f k * c = (∑ k ∈ s, f k) * c := by
  classical
  induction s using Finset.induction_on with
  | empty => simp
  | insert j s hj ih =>
    rw [Finset.sum_insert hj, Finset.sum_insert hj, ih, EReal.right_distrib_of_nonneg_of_ne_top hc hct]

/-- THE MEAN COMMUTES WITH THE LINEAR MAP: dividing a row by a positive real before contracting it with a column is
    multiplying the contraction by the reciprocal afterwards. `one` is any spelling of the real one. -/
theorem sum_div_mul {ι : Type} [Fintype ι] (a w : ι → EReal) {one : EReal} (hone : one = 1) {y : ℝ} (hy : 0 < y) :
    ∑ k, Ideal.div (a k) (y : EReal) * w k = (∑ k, a k * w k) * Ideal.div one (y : EReal) := by
  have hy0 : y ≠ 0 := ne_of_gt hy
  have hc : (0 : EReal) ≤ ((1 / y : ℝ) : EReal) := by exact_mod_cast (one_div_pos.mpr hy).le
  rw [hone, Ideal.div_coe hy0 1, one_mul, ← sum_mul_real Finset.univ _ hc (EReal.coe_ne_top _)]
  refine Finset.sum_congr rfl fun k _ => ?_
  rw [Ideal.div_coe hy0, mul_right_comm]

end LibMeanAlgebra

end
-- ==== Proof.GcnAlgebra.lean ====
/-
  The algebra of one layer of a graph convolution with symmetric normalisation, on the extended reals.

  A node p has a nonnegative real weight d p (the inverse square root of its in-degree, or 0). The reference scales
  the message of every edge e by the product d (src e) · d (dst e) and then adds the messages of the edges arriving
  at p; the kernel scales the source row by d (src e) BEFORE the edges are followed, adds the messages arriving at p,
  and scales the sum by d p AFTERWARDS. Every edge that arrives at p has dst e = p, so the factor d (dst e) is the
  same d p for all of them, and a nonnegative real factor distributes over any finite sum of extended reals,
  infinite terms included: the two are equal, with no finiteness asked of the features.
-/
import proofs.«165854_j3264175145417_2_alg».proof.Proof.LibGraphIdx
import proofs.«165854_j3264175145417_2_alg».proof.Proof.LibMeanAlgebra

noncomputable section

open scoped BigOperators

namespace Cert.GcnAlgebra

open Idealize.ShloMosaic Idealize.ShloMosaic.ValueIdx Cert.GraphIdx

variable {N E D : Nat}

/-- ONE LAYER. The accumulated rows of source features pre-scaled by the source's weight, scaled afterwards by the
    target's weight, are the accumulated rows of features scaled edge by edge by both weights. `dstn` is the
    target index as the reference's gather reads it: it names the same node as `dst` whenever `dst` names a node. -/
theorem layer_law (hN : 0 < N)
    (wfs2 : ScatterDims.WF ⟨2, ![N, D]⟩ ⟨2, ![E, 1]⟩ ⟨2, ![E, D]⟩ [1] [0] [0] 1)
    {w : Nat} (src dst dstn : IVec ⟨2, ![E, 1]⟩ w)
    (hdstn : ∀ (e : Fin E) (p : Fin N), (dst (ix2 e 0)).toInt = (p.val : Int) → (dstn (ix2 e 0)).toInt = (p.val : Int))
    (d : (⟨1, ![N]⟩ : Shape).Idx → EReal) (hd : ∀ i, 0 ≤ d i ∧ d i ≠ ⊤)
    (z : FVec Ideal ⟨2, ![N, D]⟩ .f32) (hz : ∀ i, z i = 0)
    (h : (⟨2, ![N, D]⟩ : Shape).Idx → EReal)
    (updK updR : FVec Ideal ⟨2, ![E, D]⟩ .f32)
    (hupdK : ∀ (e : Fin E) (q : Fin D), updK (ix2 e q) = d (ix1 (rowOf hN src e)) * h (ix2 (rowOf hN src e) q))
    (hupdR : ∀ (e : Fin E) (q : Fin D), updR (ix2 e q)
      = (d (ix1 (rowOf hN src e)) * d (ix1 (rowOf hN dstn e))) * h (ix2 (rowOf hN src e) q))
    (p : Fin N) (q : Fin D) :
    d (ix1 p) * Host.scatterAdd (F := Ideal) (sd2 wfs2) z dst updK (ix2 p q)
      = Host.scatterAdd (F := Ideal) (sd2 wfs2) z dst updR (ix2 p q) := by
  rw [scatterAdd2_apply, scatterAdd2_apply, hz, zero_add, zero_add, mul_comm,
    ← LibMeanAlgebra.sum_mul_real _ _ (hd (ix1 p)).1 (hd (ix1 p)).2]
  refine Finset.sum_congr rfl fun e he => ?_
  have hL : (dst (ix2 e 0)).toInt = (p.val : Int) := (Finset.mem_filter.1 he).2
  rw [hupdK, hupdR, rowOf_eq hN dstn e p (hdstn e p hL), mul_right_comm]

/-- The guarded inverse square root of a nonnegative real — `rsqrt z` where `z > 0`, zero elsewhere — is a
    nonnegative real. -/
theorem guarded_rsqrt_nonneg (z zero0 zero1 : EReal) (h0 : zero0 = 0) (h1 : zero1 = 0)
    (hz : ∃ r : ℝ, 0 ≤ r ∧ z = (r : EReal)) :
    0 ≤ Scalar.select (Ideal.cmp .ogt z zero0) (Ideal.rsqrt z) zero1
      ∧ Scalar.select (Ideal.cmp .ogt z zero0) (Ideal.rsqrt z) zero1 ≠ ⊤ := by
  obtain ⟨r, hr, rfl⟩ := hz
  subst h0 h1
  by_cases hpos : 0 < r
  · have hc : Ideal.cmp .ogt (r : EReal) 0 = 1 := by
      show BitVec.ofBool (decide ((0 : EReal) < (r : EReal))) = 1
      rw [decide_eq_true (by exact_mod_cast hpos)]; rfl
    have hv : Ideal.rsqrt (r : EReal) = (((Real.sqrt r)⁻¹ : ℝ) : EReal) := by
      rw [Ideal.rsqrt_coe, if_neg (not_lt.2 hr), if_neg (ne_of_gt hpos)]
    unfold Scalar.select
    rw [if_pos hc, hv]
    exact ⟨by exact_mod_cast inv_nonneg.2 (Real.sqrt_nonneg r), EReal.coe_ne_top _⟩
  · have hc : Ideal.cmp .ogt (r : EReal) 0 ≠ 1 := by
      show BitVec.ofBool (decide ((0 : EReal) < (r : EReal))) ≠ 1
      rw [decide_eq_false (by exact_mod_cast hpos)]; decide
    unfold Scalar.select
    rw [if_neg hc]
    exact ⟨le_refl 0, EReal.zero_ne_top⟩

end Cert.GcnAlgebra

end
-- ==== Proof.LibVecToColumn.lean ====
/-
  A reshape keeps the row-major position of every element: a vector of length `n` and the column `[n, 1]` it is
  reshaped to hold element `r` at positions `r` and `r · 1 + 0`.
-/
import Idealize.ShloMosaic.Lib.Pipeline.Value
import Idealize.ShloMosaic.Lib.ValueIdx

noncomputable section

namespace LibVecToColumn

open Idealize.ShloMosaic Idealize.ShloMosaic.ValueIdx

/-- A vector of length `n` laid out as a column `[n, 1]` reads, at `(r, 0)`, the vector at `r`. -/
theorem vec_to_col_apply {α : Type} {n : Nat} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    rw [Nat.mul_one, Nat.add_zero])

end LibVecToColumn

end
-- ==== Proof.LibReshapeRead.lean ====
import Idealize.ShloMosaic.Lib.ValueIdx
import Idealize.ShloMosaic.Lib.ValueLayout
import Idealize.ShloMosaic.Lib.Pipeline.Value

/-! # Two reshapes read at an index

A reshape keeps the row-major position of every element. A column `[m, 1]` and the vector `[m]` it is reshaped to
hold element `p` at positions `p * 1 + 0` and `p`; a vector `[n]` and the one-row array `[1, n]` it is reshaped to hold
element `k` at positions `k` and `0 * n + k`. -/

namespace Cert.DistSeams

open Idealize.ShloMosaic Idealize.ShloMosaic.ValueIdx

/-- A column `[m, 1]` viewed as a vector of length `m` reads, at `p`, the column at `(p, 0)`. -/
theorem col_to_vec_apply {α : Type} {m : Nat} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A vector of length `n` viewed as the one row of a `[1, n]` array reads, at `(u, k)`, the vector at `k`, whatever the
    unit coordinate `u`. -/
theorem vec_to_row_apply {α : Type} {n : Nat} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_a_1a_apply x h u k

end Cert.DistSeams
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.Bridge.lean ====
/-
  The two idealized programs compute one function.

  Both programs build the same endpoint columns and the same node weights from the edge array, by the same host
  operations. The reference scales every edge's message by the product of its endpoints' weights and accumulates;
  the kernel program scales rows by the source's weight inside its first kernel, accumulates, and scales by the
  target's weight inside its second kernel (for the first layer) or in its last host stretch (for the second).
  The layer law joins the two forms; the bias, the floor at zero and the second matrix product then read the same
  on both sides, index by index.
-/
import proofs.«165854_j3264175145417_2_alg».proof.Proof.RefRead
import proofs.«165854_j3264175145417_2_alg».proof.Proof.GcnAlgebra
import proofs.«165854_j3264175145417_2_alg».proof.Proof.LibVecToColumn
import proofs.«165854_j3264175145417_2_alg».proof.Proof.LibReshapeRead
import proofs.«165854_j3264175145417_2_alg».proof.Proof.LibBroadcastInDimPair
import proofs.«165854_j3264175145417_2_alg».proof.Proof.KValue

set_option maxHeartbeats 2000000
set_option maxRecDepth 16384

noncomputable section

open scoped BigOperators

namespace Cert.Bridge

open Idealize.ShloMosaic Idealize.ShloMosaic.ValueIdx Cert.GraphIdx
open Cert.ReferenceIdeal Cert.ReferenceIdeal.Gen Cert.ReferenceIdeal.ReadP
open Cert.KernelIdeal.KWalk

abbrev wfs2 := Cert.ReferenceIdeal.Gen.scatter_S100000x64_S1700000x1_S1700000x64_1_0_0_1_wf
abbrev wfg2 := Cert.ReferenceIdeal.Gen.gather_S100000x64_S1700000x1_S1700000x64_1_0_n_n_0_1_164_wf
abbrev wfg1 := Cert.ReferenceIdeal.Gen.gather_S100000_S1700000x1_S1700000_n_0_n_n_0_1_1_wf

theorem hN : 0 < 100000 := by decide

variable (x0 : (⟨S100000x128, .f32⟩ : BufTy).Contents (Elt Ideal)) (x1 : (⟨S2x1600000, .i32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-! ## The shared host stretch: both programs' index columns and weights are the same terms -/

theorem src_eq : srcV x1 = val_main_v3 (F := Ideal) x1 := rfl
theorem dst_eq : dstV x1 = val_main_v6 (F := Ideal) x1 := rfl
theorem dinv_eq : dinvV (F := Ideal) x1 = val_main_v14 (F := Ideal) x1 := rfl

/-- A target index that names a node is not negative, so wrapping leaves it alone. -/
theorem wrap_of_nonneg (d : BitVec 32) (p : Nat) (h : d.toInt = (p : Int)) :
    Scalar.select (IntOp.cmpi .slt d 0#32) (IntOp.addi d 100000#32) d = d := by
  have hs : d.slt 0#32 = false := by
    rw [BitVec.slt, h]
    simp
  unfold Scalar.select IntOp.cmpi
  rw [hs]
  rfl

/-- The reference's wrapped target column names the same node as the plain target column wherever that names one. -/
theorem hdstn (e : Fin 1700000) (p : Fin 100000)
    (h : BitVec.toInt (val_main_v9 (F := Ideal) x1 (ix2 e 0)) = (p.val : Int)) :
    BitVec.toInt (val_main_v27 (F := Ideal) x1 (ix2 e 0)) = (p.val : Int) := by
  rw [val_main_v9_apply] at h
  rw [val_main_v27_apply, val_main_v26_apply, val_main_v23_apply, val_main_v25_apply, val_main_v22_apply, val_main_c_4_apply,
    val_main_v24_apply, val_main_c_5_apply]
  have e1 : idx_main_v27 (ix2 e (0 : Fin 1)) = idx_main_v9 (ix2 e (0 : Fin 1)) := rfl
  rw [e1]
  generalize val_main_v6 (F := Ideal) x1 (idx_main_v9 (ix2 e (0 : Fin 1))) = d at h ⊢
  rw [wrap_of_nonneg d p.val h]
  exact h

/-- Every node's weight is a nonnegative real. -/
theorem hd (i : S100000.Idx) : 0 ≤ val_main_v14 (F := Ideal) x1 i ∧ val_main_v14 (F := Ideal) x1 i ≠ ⊤ := by
  have hx : ∀ i', val_main_v8 (F := Ideal) i' = 0 := fun i' => by
    rw [val_main_v8_apply, val_main_cst_0_apply]; exact Ideal.ofBits_zero_f32
  have hu : ∀ j, val_main_v7 (F := Ideal) j = 1 := fun j => by
    rw [val_main_v7_apply, val_main_cst_apply]; exact LibMeanAlgebra.ofBits_one
  have hdeg : ∃ r : ℝ, 0 ≤ r ∧ val_main_v10 (F := Ideal) x1 i = (r : EReal) := by
    unfold val_main_v10
    obtain ⟨n, hn⟩ := Cert.ScatterAddFinite.scatterAdd_zero_one_nat (φ := .f32) scatter_S100000_S1700000x1_S1700000_n_0_0_1
      (val_main_v8 (F := Ideal)) (val_main_v9 (F := Ideal) x1) (val_main_v7 (F := Ideal)) hx hu i
    exact ⟨n, Nat.cast_nonneg n, hn⟩
  have h0 : val_main_v11 (F := Ideal) i = 0 := by
    rw [val_main_v11_apply, val_main_cst_1_apply]; exact Ideal.ofBits_zero_f32
  have h1 : val_main_call0_v1 (F := Ideal) i = 0 := by
    rw [val_main_call0_v1_apply, val_main_call0_v0_apply, val_main_cst_2_apply]; exact Ideal.ofBits_zero_f32
  rw [val_main_v14_apply, val_main_v12_apply, val_main_v13_apply]
  generalize val_main_v10 (F := Ideal) x1 i = z at hdeg ⊢
  generalize val_main_v11 (F := Ideal) i = a at h0 ⊢
  generalize val_main_call0_v1 (F := Ideal) i = b at h1 ⊢
  exact Cert.GcnAlgebra.guarded_rsqrt_nonneg z a b h0 h1 hdeg

/-! ## One layer -/

/-- The reference's accumulation of a feature matrix: every edge's row scaled by both endpoint weights. -/
def refAgg (h : (⟨S100000x64, .f32⟩ : BufTy).Contents (Elt Ideal)) : (⟨S100000x64, .f32⟩ : BufTy).Contents (Elt Ideal) :=
  Host.scatterAdd (F := Ideal) (φ := .f32) scatter_S100000x64_S1700000x1_S1700000x64_1_0_0_1 (val_main_v42 (F := Ideal)) (val_main_v43 (F := Ideal) x1)
    (mulf (F := Ideal) (φ := .f32) (val_main_v40 (F := Ideal) x1)
      (Host.gather (α := Ideal .f32) gather_S100000x64_S1700000x1_S1700000x64_1_0_n_n_0_1_164 h (val_main_v38 (F := Ideal) x1)))

theorem v44_eq : val_main_v44 (F := Ideal) x0 x1 x2 = refAgg x1 (val_main_v31 (F := Ideal) x0 x2) := rfl
theorem v86_eq : val_main_v86 (F := Ideal) x0 x1 x2 x3 x4 = refAgg x1 (val_main_v73 (F := Ideal) x0 x1 x2 x3 x4) := rfl

/-- The factor the reference puts on edge e: the product of the two endpoint weights. -/
theorem norm_apply (e : Fin 1700000) (q : Fin 64) :
    val_main_v40 (F := Ideal) x1 (ix2 e q)
      = val_main_v14 (F := Ideal) x1 (ix1 (rowOf hN (val_main_v20 (F := Ideal) x1) e))
        * val_main_v14 (F := Ideal) x1 (ix1 (rowOf hN (val_main_v27 (F := Ideal) x1) e)) := by
  rw [val_main_v40_apply, val_main_v32_apply, val_main_v29_apply]
  have e1 : idx_main_v32 (idx_main_v40 (ix2 e q)) = ix1 e := by
    funext a; match a with | ⟨0, _⟩ => rfl
  rw [e1]
  show Host.gather (gd1 (N := 100000) (E := 1700000) wfg1) (val_main_v14 (F := Ideal) x1) (val_main_v20 (F := Ideal) x1) (ix1 e)
      * Host.gather (gd1 (N := 100000) (E := 1700000) wfg1) (val_main_v14 (F := Ideal) x1) (val_main_v27 (F := Ideal) x1) (ix1 e) = _
  rw [gather1_apply wfg1 hN, gather1_apply wfg1 hN]

/-- THE LAYER: rows pre-scaled by the source's weight, gathered, accumulated and scaled by the target's weight are
    the reference's accumulation. -/
theorem layer (h K : (⟨S100000x64, .f32⟩ : BufTy).Contents (Elt Ideal))
    (hK : ∀ (r : Fin 100000) (q : Fin 64), K (ix2 r q) = val_main_v14 (F := Ideal) x1 (ix1 r) * h (ix2 r q))
    (n : Fin 100000) (k : Fin 64) :
    val_main_v14 (F := Ideal) x1 (ix1 n) * agg (F := Ideal) (val_main_v6 (F := Ideal) x1) (val_main_v3 (F := Ideal) x1) K (ix2 n k)
      = refAgg x1 h (ix2 n k) := by
  have hz : ∀ i, val_main_v42 (F := Ideal) i = 0 := fun i => by
    rw [val_main_v42_apply, val_main_cst_8_apply]; exact Ideal.ofBits_zero_f32
  refine Cert.GcnAlgebra.layer_law (N := 100000) (E := 1700000) (D := 64) hN wfs2
    (val_main_v20 (F := Ideal) x1) (val_main_v9 (F := Ideal) x1) (val_main_v27 (F := Ideal) x1) (hdstn x1)
    (val_main_v14 (F := Ideal) x1) (hd x1) (val_main_v42 (F := Ideal)) hz h
    (Host.gather (gd2 (N := 100000) (E := 1700000) (D := 64) wfg2) K (val_main_v20 (F := Ideal) x1))
    (mulf (val_main_v40 (F := Ideal) x1) (Host.gather (gd2 (N := 100000) (E := 1700000) (D := 64) wfg2) h (val_main_v20 (F := Ideal) x1)))
    (fun e q => ?_) (fun e q => ?_) n k
  · rw [gather2_apply wfg2 hN, hK]
  · rw [mulf_apply, gather2_apply wfg2 hN, norm_apply]

/-! ## The kernels' rows against the reference's matrix products -/

/-- The weight column at row r is the node's weight. -/
theorem dcol_apply (r : Fin 100000) :
    shapeCast Cert.KernelIdeal.S100000x1 (val_main_v14 (F := Ideal) x1) Cert.KernelIdeal.Gen.shapeCasts_S100000_S100000x1 (ix2 r (0 : Fin 1))
      = val_main_v14 (F := Ideal) x1 (ix1 r) :=
  LibVecToColumn.vec_to_col_apply _ _ r

/-- The first kernel's rows are the reference's first product scaled by the node's weight. -/
theorem proj0_eq (r : Fin 100000) (q : Fin 64) :
    Cert.KernelIdeal.KBlock0.proj x0 (val_main_v30 (F := Ideal) x2)
        (shapeCast Cert.KernelIdeal.S100000x1 (val_main_v14 (F := Ideal) x1) Cert.KernelIdeal.Gen.shapeCasts_S100000_S100000x1) (ix2 r q)
      = val_main_v14 (F := Ideal) x1 (ix1 r) * val_main_v31 (F := Ideal) x0 x2 (ix2 r q) := by
  rw [val_main_v31_apply]
  unfold Cert.KernelIdeal.KBlock0.proj
  show shapeCast _ _ _ (ix2 r (0 : Fin 1)) * _ = _
  rw [dcol_apply]
  refine congrArg (val_main_v14 (F := Ideal) x1 (ix1 r) * ·) (Finset.sum_congr rfl fun k _ => ?_)
  have el : lidx_main_v31 (ix2 r q) k = ix2 r k := by
    funext a; apply Fin.ext; match a with | ⟨0, _⟩ => rfl | ⟨1, _⟩ => rfl
  have er : ridx_main_v31 (ix2 r q) k = ix2 k q := by
    funext a; apply Fin.ext; match a with | ⟨0, _⟩ => rfl | ⟨1, _⟩ => rfl
  rw [el, er]

/-- The first layer's output, as the second kernel forms it from the accumulated rows, is the reference's. -/
theorem hidden_eq (A : (⟨S100000x64, .f32⟩ : BufTy).Contents (Elt Ideal))
    (hA : ∀ (r : Fin 100000) (k : Fin 64), val_main_v14 (F := Ideal) x1 (ix1 r) * A (ix2 r k) = val_main_v44 (F := Ideal) x0 x1 x2 (ix2 r k))
    (r : Fin 100000) (k : Fin 64) :
    Cert.KernelIdeal.KBlock1.hidden A
        (shapeCast Cert.KernelIdeal.S100000x1 (val_main_v14 (F := Ideal) x1) Cert.KernelIdeal.Gen.shapeCasts_S100000_S100000x1)
        (shapeCast Cert.KernelIdeal.S1x64 x3 Cert.KernelIdeal.Gen.shapeCasts_S64_S1x64) r k
      = val_main_v48 (F := Ideal) x0 x1 x2 x3 (ix2 r k) := by
  rw [val_main_v48_apply, val_main_v47_apply, val_main_call1_v0_apply, val_main_call1_cst_apply, val_main_v46_apply, val_main_v45_apply]
  unfold Cert.KernelIdeal.KBlock1.hidden
  rw [dcol_apply, hA r k, Cert.DistSeams.vec_to_row_apply x3 _ (0 : Fin 1) k]
  have e1 : idx_main_v45 (idx_main_v46 (ix2 r k)) = ix1 k := by
    funext a; match a with | ⟨0, _⟩ => rfl
  rw [e1]
  generalize val_main_v44 (F := Ideal) x0 x1 x2 (ix2 r k) = t
  generalize x3 (ix1 k) = u
  show max (t + u) 0 = max (t + u) (Ideal.ofBits .f32 0x00000000#32)
  rw [Ideal.ofBits_zero_f32]

/-- The second kernel's rows are the reference's second product scaled by the node's weight. -/
theorem proj1_eq (A : (⟨S100000x64, .f32⟩ : BufTy).Contents (Elt Ideal))
    (hA : ∀ (r : Fin 100000) (k : Fin 64), val_main_v14 (F := Ideal) x1 (ix1 r) * A (ix2 r k) = val_main_v44 (F := Ideal) x0 x1 x2 (ix2 r k))
    (r : Fin 100000) (q : Fin 64) :
    Cert.KernelIdeal.KBlock1.proj A
        (shapeCast Cert.KernelIdeal.S100000x1 (val_main_v14 (F := Ideal) x1) Cert.KernelIdeal.Gen.shapeCasts_S100000_S100000x1)
        (shapeCast Cert.KernelIdeal.S1x64 x3 Cert.KernelIdeal.Gen.shapeCasts_S64_S1x64)
        (val_main_v72 (F := Ideal) x4) (ix2 r q)
      = val_main_v14 (F := Ideal) x1 (ix1 r) * val_main_v73 (F := Ideal) x0 x1 x2 x3 x4 (ix2 r q) := by
  rw [val_main_v73_apply]
  unfold Cert.KernelIdeal.KBlock1.proj
  show shapeCast _ _ _ (ix2 r (0 : Fin 1)) * _ = _
  rw [dcol_apply]
  refine congrArg (val_main_v14 (F := Ideal) x1 (ix1 r) * ·) (Finset.sum_congr rfl fun k _ => ?_)
  have el : lidx_main_v73 (ix2 r q) k = ix2 r k := by
    funext a; apply Fin.ext; match a with | ⟨0, _⟩ => rfl | ⟨1, _⟩ => rfl
  have er : ridx_main_v73 (ix2 r q) k = ix2 k q := by
    funext a; apply Fin.ext; match a with | ⟨0, _⟩ => rfl | ⟨1, _⟩ => rfl
  rw [el, er]
  show Cert.KernelIdeal.KBlock1.hidden A _ _ r k * val_main_v72 (F := Ideal) x4 (ix2 k q) = _
  rw [hidden_eq x0 x1 x2 x3 A hA r k]

/-! ## The whole -/

/-- The first layer's accumulation: the kernel program's, scaled by the target's weight, is the reference's. -/
theorem agg1_eq (r : Fin 100000) (k : Fin 64) :
    val_main_v14 (F := Ideal) x1 (ix1 r)
      * agg (F := Ideal) (val_main_v6 (F := Ideal) x1) (val_main_v3 (F := Ideal) x1)
          (Cert.KernelIdeal.KBlock0.proj x0 (val_main_v30 (F := Ideal) x2)
            (shapeCast Cert.KernelIdeal.S100000x1 (val_main_v14 (F := Ideal) x1) Cert.KernelIdeal.Gen.shapeCasts_S100000_S100000x1)) (ix2 r k)
      = val_main_v44 (F := Ideal) x0 x1 x2 (ix2 r k) := by
  rw [v44_eq]
  exact layer x1 _ _ (proj0_eq x0 x1 x2) r k

/-- The second layer's accumulation, likewise. -/
theorem agg2_eq (n : Fin 100000) (j : Fin 64) :
    val_main_v14 (F := Ideal) x1 (ix1 n)
      * agg (F := Ideal) (val_main_v6 (F := Ideal) x1) (val_main_v3 (F := Ideal) x1)
          (Cert.KernelIdeal.KBlock1.proj
            (agg (F := Ideal) (val_main_v6 (F := Ideal) x1) (val_main_v3 (F := Ideal) x1)
              (Cert.KernelIdeal.KBlock0.proj x0 (val_main_v30 (F := Ideal) x2)
                (shapeCast Cert.KernelIdeal.S100000x1 (val_main_v14 (F := Ideal) x1) Cert.KernelIdeal.Gen.shapeCasts_S100000_S100000x1)))
            (shapeCast Cert.KernelIdeal.S100000x1 (val_main_v14 (F := Ideal) x1) Cert.KernelIdeal.Gen.shapeCasts_S100000_S100000x1)
            (shapeCast Cert.KernelIdeal.S1x64 x3 Cert.KernelIdeal.Gen.shapeCasts_S64_S1x64)
            (val_main_v72 (F := Ideal) x4)) (ix2 n j)
      = val_main_v86 (F := Ideal) x0 x1 x2 x3 x4 (ix2 n j) := by
  rw [v86_eq]
  exact layer x1 _ _ (proj1_eq x0 x1 x2 x3 x4 _ (agg1_eq x0 x1 x2)) n j

/-- The reference's result at (n, j): the second accumulation plus the second bias. -/
theorem ref_apply (n : Fin 100000) (j : Fin 64) :
    val_main_v89 (F := Ideal) x0 x1 x2 x3 x4 x5 (ix2 n j) = val_main_v86 (F := Ideal) x0 x1 x2 x3 x4 (ix2 n j) + x5 (ix1 j) := by
  rw [val_main_v89_apply, val_main_v88_apply, val_main_v87_apply]
  have e1 : idx_main_v87 (idx_main_v88 (ix2 n j)) = ix1 j := by
    funext a; match a with | ⟨0, _⟩ => rfl
  rw [e1]
  generalize val_main_v86 (F := Ideal) x0 x1 x2 x3 x4 (ix2 n j) = t
  generalize x5 (ix1 j) = u
  rfl

/-- The kernel program's result at (n, j): the second accumulation scaled by the node's weight, plus the second bias. -/
theorem kernel_apply (n : Fin 100000) (j : Fin 64) :
    Cert.KernelIdeal.KValue.kernelValue x0 x1 x2 x3 x4 x5 (ix2 n j)
      = val_main_v14 (F := Ideal) x1 (ix1 n)
        * agg (F := Ideal) (val_main_v6 (F := Ideal) x1) (val_main_v3 (F := Ideal) x1)
          (Cert.KernelIdeal.KBlock1.proj
            (agg (F := Ideal) (val_main_v6 (F := Ideal) x1) (val_main_v3 (F := Ideal) x1)
              (Cert.KernelIdeal.KBlock0.proj x0 (val_main_v30 (F := Ideal) x2)
                (shapeCast Cert.KernelIdeal.S100000x1 (val_main_v14 (F := Ideal) x1) Cert.KernelIdeal.Gen.shapeCasts_S100000_S100000x1)))
            (shapeCast Cert.KernelIdeal.S100000x1 (val_main_v14 (F := Ideal) x1) Cert.KernelIdeal.Gen.shapeCasts_S100000_S100000x1)
            (shapeCast Cert.KernelIdeal.S1x64 x3 Cert.KernelIdeal.Gen.shapeCasts_S64_S1x64)
            (val_main_v72 (F := Ideal) x4)) (ix2 n j)
        + x5 (ix1 j) := by
  unfold Cert.KernelIdeal.KValue.kernelValue Cert.KernelIdeal.KWalk.tail
  rw [src_eq, dst_eq, dinv_eq]
  rw [addf_apply, mulf_apply, broadcastInDim_col_apply, broadcastInDim_row_apply,
    Cert.DistSeams.vec_to_row_apply x5 _ (0 : Fin 1) j, dcol_apply]
  rfl

/-- THE TWO PROGRAMS' RESULTS ARE ONE FUNCTION of the arguments. -/
theorem value_eq : Cert.KernelIdeal.KValue.kernelValue x0 x1 x2 x3 x4 x5 = val_main_v89 (F := Ideal) x0 x1 x2 x3 x4 x5 := by
  funext i
  obtain ⟨n, j, rfl⟩ : ∃ (n : Fin 100000) (j : Fin 64), i = ix2 n j := ⟨i 0, i 1, eq_ix2 i⟩
  rw [kernel_apply, ref_apply, agg2_eq]

end Cert.Bridge

end
-- ==== Proof.lean ====
/-
  A two-layer graph convolution with symmetric degree normalisation: the kernel program against its reference,
  on the extended reals.

  Both programs append one self loop per node to the edge list, count the edges arriving at every node and give
  the node the weight d = 1/√count (0 where the count is 0): a nonnegative real. A layer of the reference sends
  along every edge e the source's projected features scaled by d(src e) · d(dst e), and adds at every node the
  messages arriving there and a bias. The kernel program scales each node's projected features by d once, inside
  the projection kernel, adds the arriving rows, and scales the sum by d at the target: every edge arriving at p has
  target p, so d(dst e) is the common factor d(p), and a nonnegative real factor distributes over any finite sum of
  extended reals. The floor at zero between the layers, the two matrix products (accumulated from zero; rounding to
  bf16 is the identity here) and the biases read the same on both sides. Nothing is asked of the float inputs: the
  weights are reals whatever the features hold.

  The three frame claims are the generated frame of each program (the reference's is its generated run with the
  result dropped); the idealization rewrote nothing, so its claim is trivial.
-/
import proofs.«165854_j3264175145417_2_alg».proof.Defs
import proofs.«165854_j3264175145417_2_alg».proof.Proof.Gen.Kernel
import proofs.«165854_j3264175145417_2_alg».proof.Proof.Gen.Kernel.Skeleton
import proofs.«165854_j3264175145417_2_alg».proof.Proof.Gen.Kernel.Launch
import proofs.«165854_j3264175145417_2_alg».proof.Proof.Gen.Kernel.Points
import proofs.«165854_j3264175145417_2_alg».proof.Proof.Gen.Kernel.Frame
import proofs.«165854_j3264175145417_2_alg».proof.Proof.Gen.KernelIdeal
import proofs.«165854_j3264175145417_2_alg».proof.Proof.Gen.KernelIdeal.Skeleton
import proofs.«165854_j3264175145417_2_alg».proof.Proof.Gen.KernelIdeal.Launch
import proofs.«165854_j3264175145417_2_alg».proof.Proof.Gen.KernelIdeal.Points
import proofs.«165854_j3264175145417_2_alg».proof.Proof.Gen.KernelIdeal.Frame
import proofs.«165854_j3264175145417_2_alg».proof.Proof.Gen.ReferenceIdeal
import proofs.«165854_j3264175145417_2_alg».proof.Proof.RefRun
import proofs.«165854_j3264175145417_2_alg».proof.Proof.RefRead
import proofs.«165854_j3264175145417_2_alg».proof.Proof.Gen.Pre_finite_inputs
import proofs.«165854_j3264175145417_2_alg».proof.Proof.KValue
import proofs.«165854_j3264175145417_2_alg».proof.Proof.Bridge
import Idealize.ShloMosaic.Adequacy
import Idealize.ShloMosaic.Init

set_option maxHeartbeats 2000000

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, both programs end with the result array at one function of them. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v89_eq, (hagree c).1, (hagree c).2.1, (hagree c).2.2.1, (hagree c).2.2.2.1,
    (hagree c).2.2.2.2.1, (hagree c).2.2.2.2.2]
  exact (Cert.Bridge.value_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
